-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S128x139 : Shape := ⟨2, ![128, 139]⟩
abbrev S_ : Shape := ⟨0, ![]⟩

class Facts : Prop where
  bcast_S_S128x139 : S_.BroadcastsInDim S128x139 (![] : Fin 0 → Fin S128x139.rank)
  reducesTo_S128x139_S_d0_1 : S128x139.ReducesTo [0, 1] S_
  h_S_ : 0 < S_.numel

variable [Facts]

def fn {F : FTy → Type} [FloatOps F] (main_arg0 : IVec S1x1024 32) (main_arg1 : IVec S1x1024 32) (main_arg2 : IVec S1x1024 32) (main_arg3 : IVec S1x1024 32) (main_arg4 : IVec S1x1024 32) (main_arg5 : FVec F S128x139 .f32) : IVec S_ 1 :=
  let main_v0 : FVec F S128x139 .f32 := Host.absf main_arg5
  let main_cst : FVec F S_ .f32 := constant S_ .f32 0x7F800000#32
  let main_v1 : FVec F S128x139 .f32 := broadcastInDim S128x139 ![] bcast_S_S128x139 main_cst
  let main_v2 : IVec S128x139 1 := cmpf .olt main_v0 main_v1
  let main_c : IVec S_ 1 := constantI S_ 1 1#1
  let main_v3 : IVec S_ 1 := (fun x v => Host.reduce IntOp.andi x v reducesTo_S128x139_S_d0_1 h_S_) main_v2 main_c
  main_v3
-- ==== Kernel.lean ====
abbrev S1x1024 : Shape := ⟨2, ![1, 1024]⟩
abbrev S128x139 : Shape := ⟨2, ![128, 139]⟩
abbrev S128x66 : Shape := ⟨2, ![128, 66]⟩
abbrev S66x128 : Shape := ⟨2, ![66, 128]⟩
abbrev S128x1 : Shape := ⟨2, ![128, 1]⟩
abbrev S1x128 : Shape := ⟨2, ![1, 128]⟩
abbrev S128x6 : Shape := ⟨2, ![128, 6]⟩
abbrev S6x128 : Shape := ⟨2, ![6, 128]⟩
abbrev S1x1024x1024x128 : Shape := ⟨4, ![1, 1024, 1024, 128]⟩
abbrev S1x128x128x128 : Shape := ⟨4, ![1, 128, 128, 128]⟩
abbrev S128 : Shape := ⟨1, ![128]⟩
abbrev S128x128 : Shape := ⟨2, ![128, 128]⟩
abbrev S128x128x66 : Shape := ⟨3, ![128, 128, 66]⟩
abbrev S128x128x1 : Shape := ⟨3, ![128, 128, 1]⟩
abbrev S128x128x6 : Shape := ⟨3, ![128, 128, 6]⟩
abbrev S16384x66 : Shape := ⟨2, ![16384, 66]⟩
abbrev S16384x6 : Shape := ⟨2, ![16384, 6]⟩
abbrev S16384x1 : Shape := ⟨2, ![16384, 1]⟩
abbrev S16384x128 : Shape := ⟨2, ![16384, 128]⟩
abbrev S128x128x128 : Shape := ⟨3, ![128, 128, 128]⟩

abbrev nBuf : Space → Nat
  | .hbm => 19
  | .vmem => 11
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S128x139, .f32⟩
  | .hbm, ⟨6, _⟩ => ⟨S128x66, .f32⟩
  | .hbm, ⟨7, _⟩ => ⟨S66x128, .f32⟩
  | .hbm, ⟨8, _⟩ => ⟨S66x128, .bf16⟩
  | .hbm, ⟨9, _⟩ => ⟨S128x66, .f32⟩
  | .hbm, ⟨10, _⟩ => ⟨S66x128, .f32⟩
  | .hbm, ⟨11, _⟩ => ⟨S66x128, .bf16⟩
  | .hbm, ⟨12, _⟩ => ⟨S128x1, .f32⟩
  | .hbm, ⟨13, _⟩ => ⟨S1x128, .f32⟩
  | .hbm, ⟨14, _⟩ => ⟨S1x128, .bf16⟩
  | .hbm, ⟨15, _⟩ => ⟨S128x6, .f32⟩
  | .hbm, ⟨16, _⟩ => ⟨S6x128, .f32⟩
  | .hbm, ⟨17, _⟩ => ⟨S6x128, .bf16⟩
  | .hbm, ⟨18, _⟩ => ⟨S1x1024x1024x128, .f32⟩
  | .local _ .vmem, ⟨0, _⟩ => ⟨S1x1024, .i32⟩
  | .local _ .vmem, ⟨1, _⟩ => ⟨S1x1024, .i32⟩
  | .local _ .vmem, ⟨2, _⟩ => ⟨S1x1024, .i32⟩
  | .local _ .vmem, ⟨3, _⟩ => ⟨S1x1024, .i32⟩
  | .local _ .vmem, ⟨4, _⟩ => ⟨S1x1024, .i32⟩
  | .local _ .vmem, ⟨5, _⟩ => ⟨S66x128, .bf16⟩
  | .local _ .vmem, ⟨6, _⟩ => ⟨S66x128, .bf16⟩
  | .local _ .vmem, ⟨7, _⟩ => ⟨S1x128, .bf16⟩
  | .local _ .vmem, ⟨8, _⟩ => ⟨S6x128, .bf16⟩
  | .local _ .vmem, ⟨9, _⟩ => ⟨S1x128x128x128, .f32⟩
  | .local _ .vmem, ⟨10, _⟩ => ⟨S1x128x128x128, .f32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_mult2 (i : grid0.Coords) : BitVec 32 :=
  let arg1 : BitVec 32 := BitVec.ofNat 32 (i 1).val
  let c128_i32_0 : BitVec 32 := 128#32
  let v2 : BitVec 32 := Scalar.muli arg1 c128_i32_0
  v2
def k0_off1 (i : grid0.Coords) : Fin 2 → Nat :=
  let c0 : Index := 0#32
  let arg0 : BitVec 32 := BitVec.ofNat 32 (i 0).val
  let c128_i32 : BitVec 32 := 128#32
  let v0 : BitVec 32 := Scalar.muli arg0 c128_i32
  let v1 : BitVec 32 := v0
  let v4 : Index := Scalar.indexCast v1
  ![0, v4.toNat]
def k0_off2 (i : grid0.Coords) : Fin 2 → Nat :=
  let c0_1 : Index := 0#32
  let arg1 : BitVec 32 := BitVec.ofNat 32 (i 1).val
  let c128_i32_0 : BitVec 32 := 128#32
  let v2 : BitVec 32 := Scalar.muli arg1 c128_i32_0
  let v3 : BitVec 32 := v2
  let v7 : Index := Scalar.indexCast v3
  ![0, v7.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S66x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S66x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S6x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S128x139_S128x66_0_0 : S128x139.Slices ![0, 0] S128x66
  transposes_S128x66_S66x128_1_0 : S128x66.Transposes [1, 0] S66x128
  bitsLt_bf16_f32 : FTy.bits .bf16 < FTy.bits .f32
  slices_S128x139_S128x66_0_66 : S128x139.Slices ![0, 66] S128x66
  slices_S128x139_S128x1_0_132 : S128x139.Slices ![0, 132] S128x1
  transposes_S128x1_S1x128_1_0 : S128x1.Transposes [1, 0] S1x128
  slices_S128x139_S128x6_0_133 : S128x139.Slices ![0, 133] S128x6
  transposes_S128x6_S6x128_1_0 : S128x6.Transposes [1, 0] S6x128
  h_S1x128 : 0 < S1x128.numel
  shapeCasts_S1x128_S128 : S1x128.ShapeCasts S128
  shapeCasts_S128_S128x1 : S128.ShapeCasts S128x1
  shapeCasts_S128_S1x128 : S128.ShapeCasts S1x128
  broadcasts_S128x1_S128x128 : S128x1.Broadcasts S128x128
  broadcasts_S1x128_S128x128 : S1x128.Broadcasts S128x128
  iota_S128x128x66_d2_w32 : S128x128x66.Iotas .tc 32 [2]
  shapeCasts_S128x128_S128x128x1 : S128x128.ShapeCasts S128x128x1
  broadcasts_S128x128x1_S128x128x66 : S128x128x1.Broadcasts S128x128x66
  natLt_1_32 : 1 < 32
  iota_S128x128x6_d2_w32 : S128x128x6.Iotas .tc 32 [2]
  broadcasts_S128x128x1_S128x128x6 : S128x128x1.Broadcasts S128x128x6
  shapeCasts_S128x128x66_S16384x66 : S128x128x66.ShapeCasts S16384x66
  shapeCasts_S128x128x6_S16384x6 : S128x128x6.ShapeCasts S16384x6
  shapeCasts_S128x128x1_S16384x1 : S128x128x1.ShapeCasts S16384x1
  inb_S66x128_S66x128_0_0 : ∀ a, (![0, 0] : Fin 2 → Nat) a + S66x128.size a ≤ S66x128.size a
  h_S66x128 : 0 < S66x128.numel
  shapeCasts_S66x128_S66x128 : S66x128.ShapeCasts S66x128
  inb_S1x128_S1x128_0_0 : ∀ a, (![0, 0] : Fin 2 → Nat) a + S1x128.size a ≤ S1x128.size a
  shapeCasts_S1x128_S1x128 : S1x128.ShapeCasts S1x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  shapeCasts_S16384x128_S128x128x128 : S16384x128.ShapeCasts S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  dot_S16384x66_S66x128_S16384x128_1_0_0_1_n_n_wf : DotDims.WF S16384x66 S66x128 S16384x128 [1] [0] [0] [1] [] []
  dot_S16384x1_S1x128_S16384x128_1_0_0_1_n_n_wf : DotDims.WF S16384x1 S1x128 S16384x128 [1] [0] [0] [1] [] []
  dot_S16384x6_S6x128_S16384x128_1_0_0_1_n_n_wf : DotDims.WF S16384x6 S6x128 S16384x128 [1] [0] [0] [1] [] []
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S1x128.size a ≤ S1x1024.size a
  k0_off2_inb : ∀ i : grid0.Coords, ∀ a, (k0_off2 i) a + S1x128.size a ≤ S1x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .i32 = 32 ∨ (Rect.block (s := S1x1024) S1x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .i32 = 32 ∨ (Rect.block (s := S1x1024) S1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .i32 = 32 ∨ (Rect.block (s := S1x1024) S1x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .i32 = 32 ∨ (Rect.block (s := S1x1024) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .i32 = 32 ∨ (Rect.block (s := S1x1024) S1x1024.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S66x128.size a ≤ S66x128.size a
  hwx0_5 : ∀ i : grid0.Coords, EltTy.bits .bf16 = 32 ∨ (Rect.block (s := S66x128) S66x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S66x128.size a ≤ S66x128.size a
  hwx0_6 : ∀ i : grid0.Coords, EltTy.bits .bf16 = 32 ∨ (Rect.block (s := S66x128) S66x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .bf16 = 32 ∨ (Rect.block (s := S1x128) S1x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x128.size a ≤ S6x128.size a
  hwx0_8 : ∀ i : grid0.Coords, EltTy.bits .bf16 = 32 ∨ (Rect.block (s := S6x128) S6x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x128x128.size a ≤ S1x1024x1024x128.size a
  hwx0_9 : ∀ i : grid0.Coords, EltTy.bits .f32 = 32 ∨ (Rect.block (s := S1x1024x1024x128) S1x128x128x128.size (cc0_transform_9 i) (hinb0_9 i)).WholeWords (EltTy.packing .f32)

variable [Facts₀]

def dot_S16384x66_S66x128_S16384x128_1_0_0_1_n_n : DotDims S16384x66 S66x128 S16384x128 where
  lhsContracting := [1]
  rhsContracting := [0]
  lhsNonContracting := [0]
  rhsNonContracting := [1]
  lhsBatch := []
  rhsBatch := []
  wf := dot_S16384x66_S66x128_S16384x128_1_0_0_1_n_n_wf
def dot_S16384x1_S1x128_S16384x128_1_0_0_1_n_n : DotDims S16384x1 S1x128 S16384x128 where
  lhsContracting := [1]
  rhsContracting := [0]
  lhsNonContracting := [0]
  rhsNonContracting := [1]
  lhsBatch := []
  rhsBatch := []
  wf := dot_S16384x1_S1x128_S16384x128_1_0_0_1_n_n_wf
def dot_S16384x6_S6x128_S16384x128_1_0_0_1_n_n : DotDims S16384x6 S6x128 S16384x128 where
  lhsContracting := [1]
  rhsContracting := [0]
  lhsNonContracting := [0]
  rhsNonContracting := [1]
  lhsBatch := []
  rhsBatch := []
  wf := dot_S16384x6_S6x128_S16384x128_1_0_0_1_n_n_wf

abbrev win0_0 : Pipeline.Window sig grid0 :=
  Pipeline.Window.ofSpec (Memref.whole main_arg0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S66x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S66x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S6x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x128x128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1x1024 : Shape := ⟨2, ![1, 1024]⟩
abbrev S128x139 : Shape := ⟨2, ![128, 139]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S1x1024x1024x1 : Shape := ⟨4, ![1, 1024, 1024, 1]⟩
abbrev S1x1x1x66 : Shape := ⟨4, ![1, 1, 1, 66]⟩
abbrev S1x1024x1024x66 : Shape := ⟨4, ![1, 1024, 1024, 66]⟩
abbrev S1x1x1x6 : Shape := ⟨4, ![1, 1, 1, 6]⟩
abbrev S1x1024x1024x6 : Shape := ⟨4, ![1, 1024, 1024, 6]⟩
abbrev S1x1024x1024x139 : Shape := ⟨4, ![1, 1024, 1024, 139]⟩
abbrev S1x1024x1024x128 : Shape := ⟨4, ![1, 1024, 1024, 128]⟩

abbrev nBuf : Space → Nat
  | .hbm => 104
  | .vmem => 0
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S128x139, .f32⟩
  | .hbm, ⟨6, _⟩ => ⟨S1x1024x1, .i32⟩
  | .hbm, ⟨7, _⟩ => ⟨S1x1x1024, .i32⟩
  | .hbm, ⟨8, _⟩ => ⟨S1x1024x1024, .i32⟩
  | .hbm, ⟨9, _⟩ => ⟨S1x1024x1024, .i32⟩
  | .hbm, ⟨10, _⟩ => ⟨S1x1024x1024, .i1⟩
  | .hbm, ⟨11, _⟩ => ⟨S1x1024x1, .i32⟩
  | .hbm, ⟨12, _⟩ => ⟨S1x1x1024, .i32⟩
  | .hbm, ⟨13, _⟩ => ⟨S1x1024x1024, .i32⟩
  | .hbm, ⟨14, _⟩ => ⟨S1x1024x1024, .i32⟩
  | .hbm, ⟨15, _⟩ => ⟨S1x1024x1024, .i1⟩
  | .hbm, ⟨16, _⟩ => ⟨S1x1024x1, .i32⟩
  | .hbm, ⟨17, _⟩ => ⟨S1x1x1024, .i32⟩
  | .hbm, ⟨18, _⟩ => ⟨S1x1024x1024, .i32⟩
  | .hbm, ⟨19, _⟩ => ⟨S1x1024x1024, .i32⟩
  | .hbm, ⟨20, _⟩ => ⟨S1x1024x1024, .i1⟩
  | .hbm, ⟨21, _⟩ => ⟨S1x1024x1, .i32⟩
  | .hbm, ⟨22, _⟩ => ⟨S1x1x1024, .i32⟩
  | .hbm, ⟨23, _⟩ => ⟨S1x1024x1024, .i32⟩
  | .hbm, ⟨24, _⟩ => ⟨S1x1024x1024, .i32⟩
  | .hbm, ⟨25, _⟩ => ⟨S1x1024x1024, .i32⟩
  | .hbm, ⟨26, _⟩ => ⟨S_, .i32⟩
  | .hbm, ⟨27, _⟩ => ⟨S1x1024x1024, .i32⟩
  | .hbm, ⟨28, _⟩ => ⟨S1x1024x1024, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x1024x1024, .i32⟩
  | .hbm, ⟨33, _⟩ => ⟨S1x1024x1024, .i32⟩
  | .hbm, ⟨34, _⟩ => ⟨S_, .i32⟩
  | .hbm, ⟨35, _⟩ => ⟨S1x1024x1024, .i32⟩
  | .hbm, ⟨36, _⟩ => ⟨S1x1024x1024, .i32⟩
  | .hbm, ⟨37, _⟩ => ⟨S_, .i32⟩
  | .hbm, ⟨38, _⟩ => ⟨S_, .i32⟩
  | .hbm, ⟨39, _⟩ => ⟨S1x1024x1024, .i32⟩
  | .hbm, ⟨40, _⟩ => ⟨S1x1024x1024, .i32⟩
  | .hbm, ⟨41, _⟩ => ⟨S1x1024x1024x1, .i32⟩
  | .hbm, ⟨42, _⟩ => ⟨S1x1x1x66, .i32⟩
  | .hbm, ⟨43, _⟩ => ⟨S1x1024x1024x66, .i32⟩
  | .hbm, ⟨44, _⟩ => ⟨S1x1024x1024x66, .i32⟩
  | .hbm, ⟨45, _⟩ => ⟨S1x1024x1024x66, .i1⟩
  | .hbm, ⟨46, _⟩ => ⟨S1x1024x1024x66, .f32⟩
  | .hbm, ⟨47, _⟩ => ⟨S1x1024x1, .i32⟩
  | .hbm, ⟨48, _⟩ => ⟨S1x1x1024, .i32⟩
  | .hbm, ⟨49, _⟩ => ⟨S1x1024x1024, .i32⟩
  | .hbm, ⟨50, _⟩ => ⟨S1x1024x1024, .i32⟩
  | .hbm, ⟨51, _⟩ => ⟨S1x1024x1024, .i32⟩
  | .hbm, ⟨52, _⟩ => ⟨S_, .i32⟩
  | .hbm, ⟨53, _⟩ => ⟨S1x1024x1024, .i32⟩
  | .hbm, ⟨54, _⟩ => ⟨S1x1024x1024, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x1024x1024, .i32⟩
  | .hbm, ⟨59, _⟩ => ⟨S1x1024x1024, .i32⟩
  | .hbm, ⟨60, _⟩ => ⟨S_, .i32⟩
  | .hbm, ⟨61, _⟩ => ⟨S1x1024x1024, .i32⟩
  | .hbm, ⟨62, _⟩ => ⟨S1x1024x1024, .i32⟩
  | .hbm, ⟨63, _⟩ => ⟨S1x1024x1024, .i1⟩
  | .hbm, ⟨64, _⟩ => ⟨S_, .i32⟩
  | .hbm, ⟨65, _⟩ => ⟨S_, .i32⟩
  | .hbm, ⟨66, _⟩ => ⟨S1x1024x1024, .i32⟩
  | .hbm, ⟨67, _⟩ => ⟨S1x1024x1024, .i32⟩
  | .hbm, ⟨68, _⟩ => ⟨S1x1024x1024x1, .i32⟩
  | .hbm, ⟨69, _⟩ => ⟨S1x1x1x66, .i32⟩
  | .hbm, ⟨70, _⟩ => ⟨S1x1024x1024x66, .i32⟩
  | .hbm, ⟨71, _⟩ => ⟨S1x1024x1024x66, .i32⟩
  | .hbm, ⟨72, _⟩ => ⟨S1x1024x1024x66, .i1⟩
  | .hbm, ⟨73, _⟩ => ⟨S1x1024x1024x66, .f32⟩
  | .hbm, ⟨74, _⟩ => ⟨S1x1024x1, .i32⟩
  | .hbm, ⟨75, _⟩ => ⟨S1x1x1024, .i32⟩
  | .hbm, ⟨76, _⟩ => ⟨S1x1024x1024, .i32⟩
  | .hbm, ⟨77, _⟩ => ⟨S1x1024x1024, .i32⟩
  | .hbm, ⟨78, _⟩ => ⟨S1x1024x1024, .i32⟩
  | .hbm, ⟨79, _⟩ => ⟨S_, .i32⟩
  | .hbm, ⟨80, _⟩ => ⟨S1x1024x1024, .i32⟩
  | .hbm, ⟨81, _⟩ => ⟨S1x1024x1024, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S1x1024x1024, .i32⟩
  | .hbm, ⟨86, _⟩ => ⟨S1x1024x1024, .i32⟩
  | .hbm, ⟨87, _⟩ => ⟨S_, .i32⟩
  | .hbm, ⟨88, _⟩ => ⟨S1x1024x1024, .i32⟩
  | .hbm, ⟨89, _⟩ => ⟨S1x1024x1024, .i32⟩
  | .hbm, ⟨90, _⟩ => ⟨S_, .i32⟩
  | .hbm, ⟨91, _⟩ => ⟨S_, .i32⟩
  | .hbm, ⟨92, _⟩ => ⟨S1x1024x1024, .i32⟩
  | .hbm, ⟨93, _⟩ => ⟨S1x1024x1024, .i32⟩
  | .hbm, ⟨94, _⟩ => ⟨S1x1024x1024x1, .i32⟩
  | .hbm, ⟨95, _⟩ => ⟨S1x1x1x6, .i32⟩
  | .hbm, ⟨96, _⟩ => ⟨S1x1024x1024x6, .i32⟩
  | .hbm, ⟨97, _⟩ => ⟨S1x1024x1024x6, .i32⟩
  | .hbm, ⟨98, _⟩ => ⟨S1x1024x1024x6, .i1⟩
  | .hbm, ⟨99, _⟩ => ⟨S1x1024x1024x6, .f32⟩
  | .hbm, ⟨100, _⟩ => ⟨S1x1024x1024x1, .i1⟩
  | .hbm, ⟨101, _⟩ => ⟨S1x1024x1024x1, .f32⟩
  | .hbm, ⟨102, _⟩ => ⟨S1x1024x1024x139, .f32⟩
  | .hbm, ⟨103, _⟩ => ⟨S1x1024x1024x128, .f32⟩
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v22 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_3 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_c_5 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v32 : Ref sig .tc := ⟨.hbm, 62, rfl⟩
abbrev main_v33 : Ref sig .tc := ⟨.hbm, 63, rfl⟩
abbrev main_c_6 : Ref sig .tc := ⟨.hbm, 64, rfl⟩
abbrev main_call4_v0 : Ref sig .tc := ⟨.hbm, 65, rfl⟩
abbrev main_call4_v1 : Ref sig .tc := ⟨.hbm, 66, rfl⟩
abbrev main_v34 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_c_7 : Ref sig .tc := ⟨.hbm, 79, rfl⟩
abbrev main_v41 : Ref sig .tc := ⟨.hbm, 80, rfl⟩
abbrev main_v42 : Ref sig .tc := ⟨.hbm, 81, rfl⟩
abbrev main_c_8 : Ref sig .tc := ⟨.hbm, 82, rfl⟩
abbrev main_c_9 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_v43 : Ref sig .tc := ⟨.hbm, 89, rfl⟩
abbrev main_c_10 : Ref sig .tc := ⟨.hbm, 90, rfl⟩
abbrev main_call7_v0 : Ref sig .tc := ⟨.hbm, 91, rfl⟩
abbrev main_call7_v1 : Ref sig .tc := ⟨.hbm, 92, rfl⟩
abbrev main_v44 : Ref sig .tc := ⟨.hbm, 93, rfl⟩
abbrev main_call8_v0 : Ref sig .tc := ⟨.hbm, 94, rfl⟩
abbrev main_call8_v1 : Ref sig .tc := ⟨.hbm, 95, rfl⟩
abbrev main_call8_v2 : Ref sig .tc := ⟨.hbm, 96, rfl⟩
abbrev main_call8_v3 : Ref sig .tc := ⟨.hbm, 97, rfl⟩
abbrev main_call8_v4 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S_S1x1024x1024 : S_.BroadcastsInDim S1x1024x1024 (![] : Fin 0 → Fin S1x1024x1024.rank)
  bcast_S1x1024x1024_S1x1024x1024x1_0_1_2 : S1x1024x1024.BroadcastsInDim S1x1024x1024x1 (![0, 1, 2] : Fin 3 → Fin S1x1024x1024x1.rank)
  bcast_S1x1024x1024x1_S1x1024x1024x66_0_1_2_3 : S1x1024x1024x1.BroadcastsInDim S1x1024x1024x66 (![0, 1, 2, 3] : Fin 4 → Fin S1x1024x1024x66.rank)
  bcast_S1x1x1x66_S1x1024x1024x66_0_1_2_3 : S1x1x1x66.BroadcastsInDim S1x1024x1024x66 (![0, 1, 2, 3] : Fin 4 → Fin S1x1024x1024x66.rank)
  bcast_S1x1024x1024x1_S1x1024x1024x6_0_1_2_3 : S1x1024x1024x1.BroadcastsInDim S1x1024x1024x6 (![0, 1, 2, 3] : Fin 4 → Fin S1x1024x1024x6.rank)
  bcast_S1x1x1x6_S1x1024x1024x6_0_1_2_3 : S1x1x1x6.BroadcastsInDim S1x1024x1024x6 (![0, 1, 2, 3] : Fin 4 → Fin S1x1024x1024x6.rank)
  concatenates_S1x1024x1024x66_S1x1024x1024x66_S1x1024x1024x1_S1x1024x1024x6_S1x1024x1024x139_d3 : Shape.Concatenates [S1x1024x1024x66, S1x1024x1024x66, S1x1024x1024x1, S1x1024x1024x6] S1x1024x1024x139 3
  dot_S1x1024x1024x139_S128x139_S1x1024x1024x128_3_1_012_0_n_n_wf : DotDims.WF S1x1024x1024x139 S128x139 S1x1024x1024x128 [3] [1] [0, 1, 2] [0] [] []

variable [Facts₀]

def dot_S1x1024x1024x139_S128x139_S1x1024x1024x128_3_1_012_0_n_n : DotDims S1x1024x1024x139 S128x139 S1x1024x1024x128 where
  lhsContracting := [3]
  rhsContracting := [1]
  lhsNonContracting := [0, 1, 2]
  rhsNonContracting := [0]
  lhsBatch := []
  rhsBatch := []
  wf := dot_S1x1024x1024x139_S128x139_S1x1024x1024x128_3_1_012_0_n_n_wf

class Facts : Prop extends Facts₀ where

variable [Facts]
-- ==== Proof.Spec.lean ====
/-
  The relative-position encoding as one function of its six argument arrays.

  For tokens r and c the encoding selects four bins — a clipped residue offset (or the off-chain bin), a clipped
  token offset (or its sentinel when chain or residue differ), a clipped chain offset (or the other-entity bin) and
  the same-entity flag — and entry (0, r, c, z) of the result is the sum, over the 139 feature columns b, of the
  feature's indicator times W (z, b).  The 139 columns are four consecutive groups of 66, 66, 1 and 6 columns, so
  the sum over all columns is the sum of the four group sums (addition of extended reals is associative and
  commutative, whatever the summands: no finiteness is used).
-/
import Idealize.ShloMosaic.PureOps.Ideal
import Idealize.ShloMosaic.Lib.ValueIdx

noncomputable section

open scoped BigOperators

namespace Cert.RelPos

open Idealize.ShloMosaic Idealize.ShloMosaic.ValueIdx

/-- One row of 1024 integer ids. -/
abbrev Ids := (⟨2, ![1, 1024]⟩ : Shape).Idx → BitVec 32
/-- The 128 × 139 weight matrix, over the extended reals. -/
abbrev Wts := (⟨2, ![128, 139]⟩ : Shape).Idx → EReal

/-- The clipped offset `min hi (max 0 (a - b + off))` when `keep` is set, the sentinel bin `other` otherwise
    (all in 32-bit two's-complement arithmetic). -/
def bin (off hi other : BitVec 32) (keep : BitVec 1) (a b : BitVec 32) : BitVec 32 :=
  Scalar.select keep (IntOp.minsi hi (IntOp.maxsi 0#32 (IntOp.addi (IntOp.subi a b) off))) other

/-- The indicator of `d = k`, as the extended real 1 or 0. -/
def hot (d : BitVec 32) (k : ℕ) : EReal := (((IntOp.cmpi .eq d (BitVec.ofNat 32 k)).toNat : ℝ) : EReal)

/-- A one-bit flag as the extended real 1 or 0. -/
def flag (b : BitVec 1) : EReal := ((b.toNat : ℝ) : EReal)

/-- One entry of the encoding from the ids of its two tokens (asym, residue, entity, token, sym ids of the row token
    `a r e t s` and of the column token `a' r' e' t' s'`) and the four groups of weights that meet it: the residue-offset
    bin (clipped to 0..64 on one chain, 65 across chains), the token-offset bin (clipped on one chain and residue, 65
    otherwise), the same-entity flag, and the chain-offset bin (clipped to 0..4 within one entity, 5 across), each
    group's weighted indicators summed, the four sums added left to right. -/
def entryOf (a a' r r' e e' t t' s s' : BitVec 32) (wp wt : Fin 66 → EReal) (we : Fin 1 → EReal) (wc : Fin 6 → EReal) : EReal :=
  (∑ k : Fin 66, hot (bin 32#32 64#32 65#32 (IntOp.cmpi .eq a a') r r') k.val * wp k)
    + (∑ k : Fin 66, hot (bin 32#32 64#32 65#32 (IntOp.andi (IntOp.cmpi .eq a a') (IntOp.cmpi .eq r r')) t t') k.val * wt k)
    + (∑ k : Fin 1, flag (IntOp.cmpi .eq e e') * we k)
    + (∑ k : Fin 6, hot (bin 2#32 4#32 5#32 (IntOp.cmpi .eq e e') s s') k.val * wc k)

/-- Entry (r, c, z) of the encoding of the five id rows under the weights `W`: feature column `b` meets `W (z, b)`,
    the four groups at columns 0, 66, 132 and 133. -/
def entry (asym res ent tok sym : Ids) (W : Wts) (r c : Fin 1024) (z : Fin 128) : EReal :=
  entryOf (asym (ix2 (0 : Fin 1) r)) (asym (ix2 (0 : Fin 1) c)) (res (ix2 (0 : Fin 1) r)) (res (ix2 (0 : Fin 1) c))
    (ent (ix2 (0 : Fin 1) r)) (ent (ix2 (0 : Fin 1) c)) (tok (ix2 (0 : Fin 1) r)) (tok (ix2 (0 : Fin 1) c))
    (sym (ix2 (0 : Fin 1) r)) (sym (ix2 (0 : Fin 1) c))
    (fun k => W (ix2 z (⟨k.val, by omega⟩ : Fin 139))) (fun k => W (ix2 z (⟨66 + k.val, by omega⟩ : Fin 139)))
    (fun k => W (ix2 z (⟨132 + k.val, by omega⟩ : Fin 139))) (fun k => W (ix2 z (⟨133 + k.val, by omega⟩ : Fin 139)))

/-- The whole result array. -/
def G (asym res ent tok sym : Ids) (W : Wts) : (⟨4, ![1, 1024, 1024, 128]⟩ : Shape).Idx → EReal :=
  fun j => entry asym res ent tok sym W (j 1) (j 2) (j 3)

/-- A sum over the 139 columns is the sum of the sums over the four groups of 66, 66, 1 and 6 columns. -/
theorem sum_columns {M : Type*} [AddCommMonoid M] (f : Fin 139 → M) :
    ∑ b : Fin 139, f b
      = (∑ k : Fin 66, f ⟨k.val, by omega⟩) + (∑ k : Fin 66, f ⟨66 + k.val, by omega⟩)
        + (∑ k : Fin 1, f ⟨132 + k.val, by omega⟩) + (∑ k : Fin 6, f ⟨133 + k.val, by omega⟩) := by
  show ∑ b : Fin (66 + 66 + 1 + 6), f b = _
  rw [Fin.sum_univ_add, Fin.sum_univ_add, Fin.sum_univ_add]
  rfl

/-- A bit widened to 32 bits and read as a signed integer is the bit read as a natural number. -/
theorem toInt_setWidth_bit (b : BitVec 1) : (((b.setWidth 32).toInt : ℝ) : EReal) = ((b.toNat : ℝ) : EReal) := by
  by_cases h : b = 1#1
  · subst h; norm_num
  · have h0 := eq_zero_of_ne_one h
    subst h0; norm_num

end Cert.RelPos

end
-- ==== Proof.Piece.lean ====
/-
  What one grid point leaves in the output's staging buffer, as a value.

  At grid point (i₀, i₁) the body reads, from each of the five id rows, the 128 ids from position 128·i₀ (the tile's row
  tokens) and the 128 ids from position 128·i₁ (its column tokens), reads the four weight blocks whole, and stores one
  [1, 128, 128, 128] block over the whole buffer.  So the buffer ends holding that stored value: the body's arithmetic
  applied to those ten id blocks and four weight blocks.
-/
import proofs.«114988_j86371792322629_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem

namespace Cert.KernelIdeal.Tile

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The 128 ids of a row of 1024 from position 128·i₀: the ids of the tile's row tokens. -/
def rowIds (i : grid0.Coords) (x : Vec F S1x1024 .i32) : Vec F S1x128 .i32 :=
  View.ld x (Rect.unit (s := S1x1024) (k0_off1 i) S1x128.size (Gen.k0_off1_inb i))

/-- The 128 ids of a row of 1024 from position 128·i₁: the ids of the tile's column tokens. -/
def colIds (i : grid0.Coords) (x : Vec F S1x1024 .i32) : Vec F S1x128 .i32 :=
  View.ld x (Rect.unit (s := S1x1024) (k0_off2 i) S1x128.size (Gen.k0_off2_inb i))

/-- Id `p` of the tile's row tokens is id `128·i₀ + p` of the whole row. -/
theorem rowIds_apply (i : grid0.Coords) (x : Vec F S1x1024 .i32) (p : Fin 128) (P : Fin 1024) (hP : P.val = 128 * (i 0).val + p.val) :
    rowIds i x (ValueIdx.ix2 (0 : Fin 1) p) = x (ValueIdx.ix2 (0 : Fin 1) P) := by
  unfold rowIds View.ld
  refine congrArg x (funext fun a => Fin.ext ?_)
  match a with
  | ⟨0, _⟩ => show k0_off1 i 0 + 1 * 0 = 0; rw [Gen.k0_off1_eq]; rfl
  | ⟨1, _⟩ => show k0_off1 i 1 + 1 * p.val = P.val; rw [Gen.k0_off1_eq, hP]; show 128 * (i 0).val + 1 * p.val = _; omega

/-- Id `q` of the tile's column tokens is id `128·i₁ + q` of the whole row. -/
theorem colIds_apply (i : grid0.Coords) (x : Vec F S1x1024 .i32) (q : Fin 128) (Q : Fin 1024) (hQ : Q.val = 128 * (i 1).val + q.val) :
    colIds i x (ValueIdx.ix2 (0 : Fin 1) q) = x (ValueIdx.ix2 (0 : Fin 1) Q) := by
  unfold colIds View.ld
  refine congrArg x (funext fun a => Fin.ext ?_)
  match a with
  | ⟨0, _⟩ => show k0_off2 i 0 + 1 * 0 = 0; rw [Gen.k0_off2_eq]; rfl
  | ⟨1, _⟩ => show k0_off2 i 1 + 1 * q.val = Q.val; rw [Gen.k0_off2_eq, hQ]; show 128 * (i 1).val + 1 * q.val = _; omega

/-- The body's arithmetic on the ids of the row and column tokens (asym `x0`, residue `x1`, entity `x2`, token `x3`,
    sym `x4`) and the four weight blocks. -/
def tile (i : grid0.Coords) (x0 x1 x2 x3 x4 : Vec F S1x1024 .i32) (x5 x6 : Vec F S66x128 .bf16) (x7 : Vec F S1x128 .bf16)
    (x8 : Vec F S6x128 .bf16) : Vec F S1x128x128x128 .f32 :=
  k0_pay15 (k0_pay11 (k0_pay9 (rowIds i x2)) (k0_pay10 (colIds i x2)))
    (k0_pay12 (k0_pay3 (rowIds i x3)) (k0_pay4 (colIds i x3)) (k0_pay7 (rowIds i x0) (colIds i x0)) (k0_pay8 (rowIds i x1) (colIds i x1)))
    (k0_pay13 (k0_pay5 (rowIds i x4)) (k0_pay6 (colIds i x4)) (k0_pay9 (rowIds i x2)) (k0_pay10 (colIds i x2)))
    (iota .tc S128x128x66 32 [2] iota_S128x128x66_d2_w32)
    (k0_pay14 (k0_pay1 (rowIds i x1)) (k0_pay2 (colIds i x1)) (k0_pay7 (rowIds i x0) (colIds i x0)))
    x5 x6 x7 x8

/-- The body's one store covers the staging buffer, so what the buffer ends holding is the stored value. -/
theorem out_eq_tile (c : Dev nD) (i : grid0.Coords) (arg2 : Memref sig .tc .vmem S1x1024 .i32) (harg2 : arg2.IsWhole) (arg3 : Memref sig .tc .vmem S1x1024 .i32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S66x128 .bf16) (harg7 : arg7.IsWhole) (arg8 : Memref sig .tc .vmem S66x128 .bf16) (harg8 : arg8.IsWhole) (arg9 : Memref sig .tc .vmem S1x128 .bf16) (harg9 : arg9.IsWhole) (arg10 : Memref sig .tc .vmem S6x128 .bf16) (harg10 : arg10.IsWhole) (arg11 : Memref sig .tc .vmem S1x128x128x128 .f32) (harg11 : arg11.IsWhole)
    (x0 : Vec F S1x1024 .i32) (x1 : Vec F S1x1024 .i32) (x2 : Vec F S1x1024 .i32) (x3 : Vec F S1x1024 .i32) (x4 : Vec F S1x1024 .i32) (x5 : Vec F S66x128 .bf16) (x6 : Vec F S66x128 .bf16) (x7 : Vec F S1x128 .bf16) (x8 : Vec F S6x128 .bf16) :
    out0_A_9 c i arg2 harg2 arg3 harg3 arg4 harg4 arg5 harg5 arg6 harg6 arg7 harg7 arg8 harg8 arg9 harg9 arg10 harg10 arg11 harg11 x0 x1 x2 x3 x4 x5 x6 x7 x8 = tile i x0 x1 x2 x3 x4 x5 x6 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_run_names
  rw [View.canon_unit_zero hz4]
  simp only [View.readAt_eq_ld, harg2.read_unread, harg3.read_unread, harg4.read_unread, harg5.read_unread, harg6.read_unread,
    harg7.read_unread, harg8.read_unread, harg9.read_unread, harg10.read_unread,
    View.ld_unit_zero (S := S66x128) hz2, View.ld_unit_zero (S := S1x128) hz2, View.ld_unit_zero (S := S6x128) hz2]
  rfl

end Cert.KernelIdeal.Tile

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.Layout.lean ====
/-
  A block of 128 ids spread over a tile.

  A block of 128 ids arrives as a [1, 128] row.  Spread down the rows of a [128, 128] tile it gives entry (p, q) the
  id at p; spread along the columns it gives entry (p, q) the id at q.
-/
import Idealize.ShloMosaic.Lib.Pipeline.Value
import Idealize.ShloMosaic.Lib.ValueIdx
import Idealize.ShloMosaic.Lib.ValueLayout
import proofs.«114988_j86371792322629_1_alg».proof.Proof.LibKeptColumn

noncomputable section

namespace Cert.RelPos.Layout

open Idealize.ShloMosaic Idealize.ShloMosaic.ValueIdx

variable {α : Type}

/-- A `[1, n]` row, flattened, stood up as a column and spread over `n` columns: entry `(p, q)` is the row's entry `p`. -/
theorem rows_apply {n : ℕ} (v : (⟨2, ![1, n]⟩ : Shape).Idx → α)
    (h1 : (⟨2, ![1, n]⟩ : Shape).ShapeCasts ⟨1, ![n]⟩) (h2 : (⟨1, ![n]⟩ : Shape).ShapeCasts ⟨2, ![n, 1]⟩)
    (h3 : (⟨2, ![n, 1]⟩ : Shape).Broadcasts ⟨2, ![n, n]⟩) (p q : Fin n) :
    broadcastTo ⟨2, ![n, n]⟩ (shapeCast ⟨2, ![n, 1]⟩ (shapeCast ⟨1, ![n]⟩ v h1) h2) h3 (ix2 p q) = v (ix2 (0 : Fin 1) p) := by
  rw [KeptColumn.broadcastTo_a1_ab_apply, KeptColumn.shapeCast_a_a1_apply, shapeCast_1a_a_apply]

/-- A `[1, n]` row, flattened, laid out as a row again and spread over `n` rows: entry `(p, q)` is the row's entry `q`. -/
theorem cols_apply {n : ℕ} (v : (⟨2, ![1, n]⟩ : Shape).Idx → α)
    (h1 : (⟨2, ![1, n]⟩ : Shape).ShapeCasts ⟨1, ![n]⟩) (h2 : (⟨1, ![n]⟩ : Shape).ShapeCasts ⟨2, ![1, n]⟩)
    (h3 : (⟨2, ![1, n]⟩ : Shape).Broadcasts ⟨2, ![n, n]⟩) (p q : Fin n) :
    broadcastTo ⟨2, ![n, n]⟩ (shapeCast ⟨2, ![1, n]⟩ (shapeCast ⟨1, ![n]⟩ v h1) h2) h3 (ix2 p q) = v (ix2 (0 : Fin 1) q) := by
  rw [broadcastTo_1b_ab_apply, shapeCast_a_1a_apply, shapeCast_1a_a_apply]

end Cert.RelPos.Layout

end
-- ==== Proof.LibTrailingUnit.lean ====
/-
  A trailing unit axis added to a matrix and then repeated, read at an index given by coordinates.

  A shape cast keeps the row-major position of every element, so an [a, b] matrix viewed as [a, b, 1] has at (i, j, 0)
  the matrix's entry (i, j); a broadcast reads the operand at the result's coordinates with coordinate 0 on the
  operand's unit axes, so that [a, b, 1] array spread to [a, b, k] has at (i, j, u) the entry at (i, j, 0).  Together:
  a matrix repeated k times along a new last axis (the first step of turning a matrix of bins into one-hot rows).
-/
import Idealize.ShloMosaic.Lib.Pipeline.Value
import Idealize.ShloMosaic.Lib.ValueIdx

namespace Idealize.ShloMosaic.TrailingUnit

open Idealize.ShloMosaic Idealize.ShloMosaic.ValueIdx

variable {α : Type}

/-- An `[a, b]` matrix cast to `[a, b, 1]` reads, at `(i, j, u)`, the operand at `(i, j)`: both indices have
    row-major position `i · b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast to `[a, b, k]` reads, at `(i, j, u)`, the operand at `(i, j, 0)`: every trailing
    coordinate sees the same entry. -/
theorem broadcastTo_ab1_abk_apply {a b k : ℕ} (x : (⟨3, ![a, b, 1]⟩ : Shape).Idx → α)
    (h : (⟨3, ![a, b, 1]⟩ : Shape).Broadcasts ⟨3, ![a, b, k]⟩) (i : Fin a) (j : Fin b) (u : Fin k) :
    broadcastTo ⟨3, ![a, b, k]⟩ x h (ix3 i j u) = x (ix3 i j (0 : Fin 1)) := by
  refine broadcastTo_apply x h (ix3 i j u) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix given a trailing unit axis and repeated `k` times along it: entry `(p, q, u)` is the matrix's entry `(p, q)`. -/
theorem depth_apply {a b k : ℕ} (d : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, k]⟩)
    (p : Fin a) (q : Fin b) (u : Fin k) :
    broadcastTo ⟨3, ![a, b, k]⟩ (shapeCast ⟨3, ![a, b, 1]⟩ d h1) h2 (ix3 p q u) = d (ix2 p q) := by
  rw [broadcastTo_ab1_abk_apply, shapeCast_ab_ab1_apply]

end Idealize.ShloMosaic.TrailingUnit
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibAxisCasts.lean ====
/-
  Re-laid arrays read at an index given by coordinates: a unit axis inserted in the middle of a matrix, rows or
  planes repeated along a new or unit axis, a vector viewed with two leading unit axes, and the two leading axes of
  a rank-3 array merged into one (and split again).

  A shape cast keeps the row-major position of every element, so an element of the result is the operand's element
  with the same position; a broadcast reads the operand at the result's coordinates, with coordinate 0 on each of the
  operand's unit axes.  Each lemma below is that fact at one pair of shapes with both indices written by their
  coordinates, so that it applies to a printed operation by unification.
-/
import Idealize.ShloMosaic.Lib.Pipeline.Value
import Idealize.ShloMosaic.Lib.ValueIdx

namespace Idealize.ShloMosaic.AxisCasts

open Idealize.ShloMosaic Idealize.ShloMosaic.ValueIdx

variable {α : Type}

/-- An `[a, b]` matrix cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, b]` array broadcast to `[a, c, b]` reads, at `(i, u, j)`, the operand at `(i, 0, j)`: every
    middle coordinate sees the same row. -/
theorem broadcastTo_a1b_acb_apply {a c b : ℕ} (x : (⟨3, ![a, 1, b]⟩ : Shape).Idx → α)
    (h : (⟨3, ![a, 1, b]⟩ : Shape).Broadcasts ⟨3, ![a, c, b]⟩) (i : Fin a) (u : Fin c) (j : Fin b) :
    broadcastTo ⟨3, ![a, c, b]⟩ x h (ix3 i u j) = x (ix3 i (0 : Fin 1) j) := by
  refine broadcastTo_apply x h (ix3 i u j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, u, j)`, the operand at `(0, u, j)`: every
    leading coordinate sees the same plane. -/
theorem broadcastTo_1cb_acb_apply {a c b : ℕ} (x : (⟨3, ![1, c, b]⟩ : Shape).Idx → α)
    (h : (⟨3, ![1, c, b]⟩ : Shape).Broadcasts ⟨3, ![a, c, b]⟩) (i : Fin a) (u : Fin c) (j : Fin b) :
    broadcastTo ⟨3, ![a, c, b]⟩ x h (ix3 i u j) = x (ix3 (0 : Fin 1) u j) := by
  refine broadcastTo_apply x h (ix3 i u j) (ix3 (0 : Fin 1) u j) fun ax => ?_
  match ax with
  | ⟨0, _⟩ => rfl
  | ⟨1, _⟩ =>
    show u.val = if c = 1 then 0 else u.val
    split
    · have := u.isLt; omega
    · rfl
  | ⟨2, _⟩ =>
    show j.val = if b = 1 then 0 else j.val
    split
    · have := j.isLt; omega
    · rfl

/-- An `[a]` vector cast to `[1, 1, a]` reads, at `(u, u', k)`, the operand at `k`. -/
theorem shapeCast_a_11a_apply {a : ℕ} (x : (⟨1, ![a]⟩ : Shape).Idx → α)
    (h : (⟨1, ![a]⟩ : Shape).ShapeCasts ⟨3, ![1, 1, a]⟩) (u u' : Fin 1) (k : Fin a) :
    shapeCast ⟨3, ![1, 1, a]⟩ x h (ix3 u u' k) = x (ix1 k) :=
  shapeCast_apply x h _ _ (by
    have hu : u.val = 0 := by omega
    have hu' : u'.val = 0 := by omega
    rw [Shape.rowMajor_val_one, Shape.rowMajor_val_three]
    show k.val = (u.val * 1 + u'.val) * a + k.val
    rw [hu, hu']; omega)

/-- A `[1, 1, b]` array broadcast to `[a, c, b]` reads, at `(i, u, j)`, the operand at `(0, 0, j)`: one row
    repeated over both leading axes. -/
theorem broadcastTo_11b_acb_apply {a c b : ℕ} (x : (⟨3, ![1, 1, b]⟩ : Shape).Idx → α)
    (h : (⟨3, ![1, 1, b]⟩ : Shape).Broadcasts ⟨3, ![a, c, b]⟩) (i : Fin a) (u : Fin c) (j : Fin b) :
    broadcastTo ⟨3, ![a, c, b]⟩ x h (ix3 i u j) = x (ix3 (0 : Fin 1) (0 : Fin 1) j) := by
  refine broadcastTo_apply x h (ix3 i u j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

/-- An `[a, c, b]` array cast to `[m, b]` (its two leading axes merged, `m = a · c`) reads, at `(r, k)`, the
    operand at `(i, u, k)` where `r = i · c + u`. -/
theorem shapeCast_acb_mb_apply {a c b m : ℕ} (x : (⟨3, ![a, c, b]⟩ : Shape).Idx → α)
    (h : (⟨3, ![a, c, b]⟩ : Shape).ShapeCasts ⟨2, ![m, b]⟩) (r : Fin m) (k : Fin b) (i : Fin a) (u : Fin c)
    (hr : r.val = i.val * c + u.val) :
    shapeCast ⟨2, ![m, b]⟩ x h (ix2 r k) = x (ix3 i u k) :=
  shapeCast_apply x h _ _ (by
    rw [Shape.rowMajor_val_three, Shape.rowMajor_val_two]
    show (i.val * c + u.val) * b + k.val = r.val * b + k.val
    rw [hr])

/-- An `[m, b]` matrix cast to `[a, c, b]` (its rows split into `a` groups of `c`, `m = a · c`) reads, at
    `(i, u, k)`, the operand at `(r, k)` where `r = i · c + u`. -/
theorem shapeCast_mb_acb_apply {a c b m : ℕ} (x : (⟨2, ![m, b]⟩ : Shape).Idx → α)
    (h : (⟨2, ![m, b]⟩ : Shape).ShapeCasts ⟨3, ![a, c, b]⟩) (i : Fin a) (u : Fin c) (k : Fin b) (r : Fin m)
    (hr : r.val = i.val * c + u.val) :
    shapeCast ⟨3, ![a, c, b]⟩ x h (ix3 i u k) = x (ix2 r k) :=
  shapeCast_apply x h _ _ (by
    rw [Shape.rowMajor_val_two, Shape.rowMajor_val_three]
    show r.val * b + k.val = (i.val * c + u.val) * b + k.val
    rw [hr])

end Idealize.ShloMosaic.AxisCasts
-- ==== Proof.Body.lean ====
/-
  The body's arithmetic read at one entry of the tile.

  For a tile with row-token ids `a r e t s` and column-token ids `a' r' e' t' s'` (each a [1, 128] block) and weight
  blocks `wp wt we wc`, entry (0, p, q, z) of what the body stores is the encoding's entry for the ids at p and at q
  under column z of the weight blocks: the integer bins are computed entry by entry; each one-hot group times its
  weight block is a matrix product over the 16384 = 128 · 128 flattened pairs, whose row 128·p + q is the pair (p, q);
  and the four products are added left to right.
-/
import proofs.«114988_j86371792322629_1_alg».proof.Proof.Gen.KernelIdeal.Skeleton
import proofs.«114988_j86371792322629_1_alg».proof.Proof.Spec
import proofs.«114988_j86371792322629_1_alg».proof.Proof.Layout
import proofs.«114988_j86371792322629_1_alg».proof.Proof.LibTrailingUnit
import proofs.«114988_j86371792322629_1_alg».proof.Proof.LibPlainMatmul
import proofs.«114988_j86371792322629_1_alg».proof.Proof.LibAxisCasts
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RelPos.Body

open Cert.KernelIdeal Cert.KernelIdeal.Gen Idealize.ShloMosaic Idealize.ShloMosaic.ValueIdx Cert.RelPos

section Bins

variable {F : FTy → Type} [FloatOps F]

/-- Entry (p, q) of the same-chain mask: do row token p and column token q carry the same id? -/
theorem pay7_apply (a a' : Vec F S1x128 .i32) (p q : Fin 128) :
    k0_pay7 a a' (ix2 p q) = IntOp.cmpi .eq (a (ix2 (0 : Fin 1) p)) (a' (ix2 (0 : Fin 1) q)) := by
  unfold k0_pay7
  show IntOp.cmpi .eq (broadcastTo S128x128 (shapeCast S128x1 (shapeCast S128 a _) _) _ (ix2 p q))
      (broadcastTo S128x128 (shapeCast S1x128 (shapeCast S128 a' _) _) _ (ix2 p q)) = _
  rw [Layout.rows_apply, Layout.cols_apply]

/-- Entry (p, q) of the same-residue mask. -/
theorem pay8_apply (r r' : Vec F S1x128 .i32) (p q : Fin 128) :
    k0_pay8 r r' (ix2 p q) = IntOp.cmpi .eq (r (ix2 (0 : Fin 1) p)) (r' (ix2 (0 : Fin 1) q)) := by
  unfold k0_pay8 k0_pay1 k0_pay2
  show IntOp.cmpi .eq (broadcastTo S128x128 (shapeCast S128x1 (shapeCast S128 r _) _) _ (ix2 p q))
      (broadcastTo S128x128 (shapeCast S1x128 (shapeCast S128 r' _) _) _ (ix2 p q)) = _
  rw [Layout.rows_apply, Layout.cols_apply]

/-- Entry (p, q) of the same-entity mask. -/
theorem pay11_apply (e e' : Vec F S1x128 .i32) (p q : Fin 128) :
    k0_pay11 (k0_pay9 e) (k0_pay10 e') (ix2 p q) = IntOp.cmpi .eq (e (ix2 (0 : Fin 1) p)) (e' (ix2 (0 : Fin 1) q)) := by
  unfold k0_pay11 k0_pay9 k0_pay10
  show IntOp.cmpi .eq (broadcastTo S128x128 (shapeCast S128x1 (shapeCast S128 e _) _) _ (ix2 p q))
      (broadcastTo S128x128 (shapeCast S1x128 (shapeCast S128 e' _) _) _ (ix2 p q)) = _
  rw [Layout.rows_apply, Layout.cols_apply]

/-- Entry (p, q) of the token-offset bin, under two masks. -/
theorem pay12_apply (t t' : Vec F S1x128 .i32) (m1 m2 : IVec S128x128 1) (p q : Fin 128) :
    k0_pay12 (k0_pay3 t) (k0_pay4 t') m1 m2 (ix2 p q)
      = bin 32#32 64#32 65#32 (IntOp.andi (m1 (ix2 p q)) (m2 (ix2 p q))) (t (ix2 (0 : Fin 1) p)) (t' (ix2 (0 : Fin 1) q)) := by
  unfold k0_pay12 k0_pay3 k0_pay4 bin
  show Scalar.select (IntOp.andi (m1 (ix2 p q)) (m2 (ix2 p q)))
      (IntOp.minsi 64#32 (IntOp.maxsi 0#32 (IntOp.addi (IntOp.subi
        (broadcastTo S128x128 (shapeCast S128x1 (shapeCast S128 t _) _) _ (ix2 p q))
        (broadcastTo S128x128 (shapeCast S1x128 (shapeCast S128 t' _) _) _ (ix2 p q))) 32#32))) 65#32 = _
  rw [Layout.rows_apply, Layout.cols_apply]

/-- Entry (p, q) of the chain-offset bin. -/
theorem pay13_apply (s s' e e' : Vec F S1x128 .i32) (p q : Fin 128) :
    k0_pay13 (k0_pay5 s) (k0_pay6 s') (k0_pay9 e) (k0_pay10 e') (ix2 p q)
      = bin 2#32 4#32 5#32 (IntOp.cmpi .eq (e (ix2 (0 : Fin 1) p)) (e' (ix2 (0 : Fin 1) q))) (s (ix2 (0 : Fin 1) p)) (s' (ix2 (0 : Fin 1) q)) := by
  rw [← pay11_apply e e' p q]
  unfold k0_pay13 k0_pay5 k0_pay6 bin
  show Scalar.select (k0_pay11 (k0_pay9 e) (k0_pay10 e') (ix2 p q))
      (IntOp.minsi 4#32 (IntOp.maxsi 0#32 (IntOp.addi (IntOp.subi
        (broadcastTo S128x128 (shapeCast S128x1 (shapeCast S128 s _) _) _ (ix2 p q))
        (broadcastTo S128x128 (shapeCast S1x128 (shapeCast S128 s' _) _) _ (ix2 p q))) 2#32))) 5#32 = _
  rw [Layout.rows_apply, Layout.cols_apply]

/-- Entry (p, q, k) of the residue one-hot, still an integer: the bit `bin = k`, widened. -/
theorem pay14_apply (r r' : Vec F S1x128 .i32) (m1 : IVec S128x128 1) (p q : Fin 128) (k : Fin 66) :
    k0_pay14 (k0_pay1 r) (k0_pay2 r') m1 (ix3 p q k)
      = (IntOp.cmpi .eq (bin 32#32 64#32 65#32 (m1 (ix2 p q)) (r (ix2 (0 : Fin 1) p)) (r' (ix2 (0 : Fin 1) q)))
          (BitVec.ofNat 32 k.val)).setWidth 32 := by
  unfold k0_pay14 k0_pay1 k0_pay2 bin
  show (IntOp.cmpi .eq
      (broadcastTo S128x128x66 (shapeCast S128x128x1
        (select m1 (minsi (broadcast S128x128 64#32) (maxsi (broadcast S128x128 0#32) (addi (subi
          (broadcastTo S128x128 (shapeCast S128x1 (shapeCast S128 r _) _) _)
          (broadcastTo S128x128 (shapeCast S1x128 (shapeCast S128 r' _) _) _)) (broadcast S128x128 32#32))))
          (broadcast S128x128 65#32)) _) _ (ix3 p q k))
      (iota .tc S128x128x66 32 [2] _ (ix3 p q k))).setWidth 32 = _
  rw [TrailingUnit.depth_apply, iota_single_apply]
  show (IntOp.cmpi .eq (Scalar.select (m1 (ix2 p q)) (IntOp.minsi 64#32 (IntOp.maxsi 0#32 (IntOp.addi (IntOp.subi
        (broadcastTo S128x128 (shapeCast S128x1 (shapeCast S128 r _) _) _ (ix2 p q))
        (broadcastTo S128x128 (shapeCast S1x128 (shapeCast S128 r' _) _) _ (ix2 p q))) 32#32))) 65#32)
      (BitVec.ofNat 32 k.val)).setWidth 32 = _
  rw [Layout.rows_apply, Layout.cols_apply]

end Bins

section Sums

/-- An integer bit, widened, converted signed and rounded to bf16 is, as an extended real, the bit read as 0 or 1. -/
theorem hot_of_bit (b : BitVec 1) :
    FloatOps.truncf (F := Ideal) .bf16 bitsLt_bf16_f32 (FloatOps.sitofp (F := Ideal) .f32 (b.setWidth 32)) = ((b.toNat : ℝ) : EReal) :=
  toInt_setWidth_bit b

/-- Entry (0, p, q, z) of the stored block: the encoding's entry for the row token at `p` and the column token at `q`,
    under column `z` of the four weight blocks. -/
theorem pay15_apply (a a' r r' e e' t t' s s' : Vec Ideal S1x128 .i32) (wp wt : FVec Ideal S66x128 .bf16)
    (we : FVec Ideal S1x128 .bf16) (wc : FVec Ideal S6x128 .bf16) (p q z : Fin 128) :
    k0_pay15 (F := Ideal) (k0_pay11 (k0_pay9 e) (k0_pay10 e')) (k0_pay12 (k0_pay3 t) (k0_pay4 t') (k0_pay7 a a') (k0_pay8 r r'))
        (k0_pay13 (k0_pay5 s) (k0_pay6 s') (k0_pay9 e) (k0_pay10 e')) (iota .tc S128x128x66 32 [2] iota_S128x128x66_d2_w32)
        (k0_pay14 (k0_pay1 r) (k0_pay2 r') (k0_pay7 a a')) wp wt we wc (ix4 (0 : Fin 1) p q z)
      = entryOf (a (ix2 (0 : Fin 1) p)) (a' (ix2 (0 : Fin 1) q)) (r (ix2 (0 : Fin 1) p)) (r' (ix2 (0 : Fin 1) q))
          (e (ix2 (0 : Fin 1) p)) (e' (ix2 (0 : Fin 1) q)) (t (ix2 (0 : Fin 1) p)) (t' (ix2 (0 : Fin 1) q))
          (s (ix2 (0 : Fin 1) p)) (s' (ix2 (0 : Fin 1) q))
          (fun k => wp (ix2 k z)) (fun k => wt (ix2 k z)) (fun k => we (ix2 k z)) (fun k => wc (ix2 k z)) := by
  unfold k0_pay15 entryOf
  dsimp only
  rw [shapeCast_abc_1abc_apply, AxisCasts.shapeCast_mb_acb_apply _ _ p q z (⟨p.val * 128 + q.val, by omega⟩ : Fin 16384) rfl]
  rw [addf_apply, addf_apply, addf_apply]
  rw [PlainMatmul.matmul_zero_apply dot_S16384x66_S66x128_S16384x128_1_0_0_1_n_n rfl rfl rfl rfl rfl rfl,
    PlainMatmul.matmul_zero_apply dot_S16384x66_S66x128_S16384x128_1_0_0_1_n_n rfl rfl rfl rfl rfl rfl,
    PlainMatmul.matmul_zero_apply dot_S16384x1_S1x128_S16384x128_1_0_0_1_n_n rfl rfl rfl rfl rfl rfl,
    PlainMatmul.matmul_zero_apply dot_S16384x6_S6x128_S16384x128_1_0_0_1_n_n rfl rfl rfl rfl rfl rfl]
  refine congrArg₂ (· + ·) (congrArg₂ (· + ·) (congrArg₂ (· + ·) ?_ ?_) ?_) ?_
  · refine Finset.sum_congr rfl fun k _ => ?_
    rw [AxisCasts.shapeCast_acb_mb_apply _ _ _ k p q rfl, shapeCast_self]
    show FloatOps.truncf (F := Ideal) .bf16 bitsLt_bf16_f32 (FloatOps.sitofp (F := Ideal) .f32
      (k0_pay14 (k0_pay1 r) (k0_pay2 r') (k0_pay7 a a') (ix3 p q k))) * wp (ix2 k z) = _
    rw [pay14_apply, pay7_apply, hot_of_bit]
    rfl
  · refine Finset.sum_congr rfl fun k _ => ?_
    rw [AxisCasts.shapeCast_acb_mb_apply _ _ _ k p q rfl, shapeCast_self]
    show FloatOps.truncf (F := Ideal) .bf16 bitsLt_bf16_f32 (FloatOps.sitofp (F := Ideal) .f32
      ((IntOp.cmpi .eq (broadcastTo S128x128x66 (shapeCast S128x128x1 (k0_pay12 (k0_pay3 t) (k0_pay4 t') (k0_pay7 a a') (k0_pay8 r r')) _) _ (ix3 p q k))
        (iota .tc S128x128x66 32 [2] iota_S128x128x66_d2_w32 (ix3 p q k))).setWidth 32)) * wt (ix2 k z) = _
    rw [TrailingUnit.depth_apply, iota_single_apply, pay12_apply, pay7_apply, pay8_apply, hot_of_bit]
    rfl
  · refine Finset.sum_congr rfl fun k _ => ?_
    rw [AxisCasts.shapeCast_acb_mb_apply _ _ _ k p q rfl, shapeCast_self, TrailingUnit.shapeCast_ab_ab1_apply]
    show FloatOps.truncf (F := Ideal) .bf16 bitsLt_bf16_f32 (FloatOps.sitofp (F := Ideal) .f32
      ((k0_pay11 (k0_pay9 e) (k0_pay10 e') (ix2 p q)).setWidth 32)) * we (ix2 k z) = _
    rw [pay11_apply, hot_of_bit]
    rfl
  · refine Finset.sum_congr rfl fun k _ => ?_
    rw [AxisCasts.shapeCast_acb_mb_apply _ _ _ k p q rfl, shapeCast_self]
    show FloatOps.truncf (F := Ideal) .bf16 bitsLt_bf16_f32 (FloatOps.sitofp (F := Ideal) .f32
      ((IntOp.cmpi .eq (broadcastTo S128x128x6 (shapeCast S128x128x1 (k0_pay13 (k0_pay5 s) (k0_pay6 s') (k0_pay9 e) (k0_pay10 e')) _) _ (ix3 p q k))
        (iota .tc S128x128x6 32 [2] iota_S128x128x6_d2_w32 (ix3 p q k))).setWidth 32)) * wc (ix2 k z) = _
    rw [TrailingUnit.depth_apply, iota_single_apply, pay13_apply, hot_of_bit]
    rfl

end Sums

end Cert.RelPos.Body

end
-- ==== Proof.HostPre.lean ====
/-
  The four weight blocks the region is launched on, as entries of the weight matrix.

  Before the region the program cuts the [128, 139] weight matrix into four column groups (columns 0–65, 66–131, 132 and
  133–138), transposes each, and rounds it to bf16 — the identity on extended reals.  So entry (k, z) of a block is
  W (z, o + k), with o the first column of the block's group.
-/
import proofs.«114988_j86371792322629_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem

namespace Cert.KernelIdeal.Weights

open Cert.KernelIdeal Cert.KernelIdeal.Gen Idealize.ShloMosaic.ValueIdx Idealize.ShloMosaic.StableHlo

variable (m : (ℓ : Loc nD τ sig) → Buf (Elt Ideal) ℓ)

/-- The residue group's block: entry (k, z) is W (z, k). -/
theorem V_v2_apply (c : Dev nD) (k : Fin 66) (z : Fin 128) :
    (V m c main_v2 : S66x128.Idx → EReal) (ix2 k z) = (m ((c : Thread nD τ).loc main_arg5) : S128x139.Idx → EReal) (ix2 z (⟨k.val, by omega⟩ : Fin 139)) := by
  have e : @Eq (FVec Ideal S66x128 .bf16) (V m c main_v2)
      (truncf (F := Ideal) .bf16 (transpose S66x128 [1, 0] (extractStridedSlice S128x66 ![0, 0] (m ((c : Thread nD τ).loc main_arg5) : FVec Ideal S128x139 .f32) slices_S128x139_S128x66_0_0) transposes_S128x66_S66x128_1_0) bitsLt_bf16_f32) := by
    dsimp only [Gen.V, Gen.hostOps0]; after_results
  rw [e]
  rw [truncf_apply, transpose_ix2_apply]
  exact slice2_axis1_apply 0 _ _ z k _ (by show k.val = 0 + k.val; omega)

/-- The token group's block: entry (k, z) is W (z, 66 + k). -/
theorem V_v5_apply (c : Dev nD) (k : Fin 66) (z : Fin 128) :
    (V m c main_v5 : S66x128.Idx → EReal) (ix2 k z) = (m ((c : Thread nD τ).loc main_arg5) : S128x139.Idx → EReal) (ix2 z (⟨66 + k.val, by omega⟩ : Fin 139)) := by
  have e : @Eq (FVec Ideal S66x128 .bf16) (V m c main_v5)
      (truncf (F := Ideal) .bf16 (transpose S66x128 [1, 0] (extractStridedSlice S128x66 ![0, 66] (m ((c : Thread nD τ).loc main_arg5) : FVec Ideal S128x139 .f32) slices_S128x139_S128x66_0_66) transposes_S128x66_S66x128_1_0) bitsLt_bf16_f32) := by
    dsimp only [Gen.V, Gen.hostOps0]; after_results
  rw [e]
  rw [truncf_apply, transpose_ix2_apply]
  exact slice2_axis1_apply 66 _ _ z k _ rfl

/-- The entity flag's block: entry (k, z) is W (z, 132 + k). -/
theorem V_v8_apply (c : Dev nD) (k : Fin 1) (z : Fin 128) :
    (V m c main_v8 : S1x128.Idx → EReal) (ix2 k z) = (m ((c : Thread nD τ).loc main_arg5) : S128x139.Idx → EReal) (ix2 z (⟨132 + k.val, by omega⟩ : Fin 139)) := by
  have e : @Eq (FVec Ideal S1x128 .bf16) (V m c main_v8)
      (truncf (F := Ideal) .bf16 (transpose S1x128 [1, 0] (extractStridedSlice S128x1 ![0, 132] (m ((c : Thread nD τ).loc main_arg5) : FVec Ideal S128x139 .f32) slices_S128x139_S128x1_0_132) transposes_S128x1_S1x128_1_0) bitsLt_bf16_f32) := by
    dsimp only [Gen.V, Gen.hostOps0]; after_results
  rw [e]
  rw [truncf_apply, transpose_ix2_apply]
  exact slice2_axis1_apply 132 _ _ z k _ rfl

/-- The chain group's block: entry (k, z) is W (z, 133 + k). -/
theorem V_v11_apply (c : Dev nD) (k : Fin 6) (z : Fin 128) :
    (V m c main_v11 : S6x128.Idx → EReal) (ix2 k z) = (m ((c : Thread nD τ).loc main_arg5) : S128x139.Idx → EReal) (ix2 z (⟨133 + k.val, by omega⟩ : Fin 139)) := by
  have e : @Eq (FVec Ideal S6x128 .bf16) (V m c main_v11)
      (truncf (F := Ideal) .bf16 (transpose S6x128 [1, 0] (extractStridedSlice S128x6 ![0, 133] (m ((c : Thread nD τ).loc main_arg5) : FVec Ideal S128x139 .f32) slices_S128x139_S128x6_0_133) transposes_S128x6_S6x128_1_0) bitsLt_bf16_f32) := by
    dsimp only [Gen.V, Gen.hostOps0]; after_results
  rw [e]
  rw [truncf_apply, transpose_ix2_apply]
  exact slice2_axis1_apply 133 _ _ z k _ rfl

end Cert.KernelIdeal.Weights

end
-- ==== Proof.Blocks.lean ====
/-
  From tiles to the whole array.

  Grid point (i₀, i₁) writes back the [1, 128, 128, 128] block at block index (0, i₀, i₁, 0): rows 128·i₀ … 128·i₀ + 127
  and columns 128·i₁ … 128·i₁ + 127 of the result.  Its entry (0, p, q, z) is the encoding's entry for tokens
  128·i₀ + p and 128·i₁ + q — the ids the body read are those tokens' ids, and the weight blocks are the weight matrix's
  column groups — so the block is the corresponding block of the encoding of the whole arguments.  The 64 blocks tile
  the result, so the array the run leaves is the encoding.
-/
import proofs.«114988_j86371792322629_1_alg».proof.Proof.Gen.KernelIdeal.Value
import proofs.«114988_j86371792322629_1_alg».proof.Proof.Spec
import proofs.«114988_j86371792322629_1_alg».proof.Proof.Piece
import proofs.«114988_j86371792322629_1_alg».proof.Proof.Body
import proofs.«114988_j86371792322629_1_alg».proof.Proof.HostPre
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Tile Cert.KernelIdeal.Weights
open Idealize.ShloMosaic.ValueIdx Cert.RelPos

variable (m : (ℓ : Loc nD τ sig) → Buf (Elt Ideal) ℓ) (ρ : Dev nD → PrngReg)

/-- The encoding of the six argument arrays as core `c` holds them at launch. -/
abbrev result (c : Dev nD) : S1x1024x1024x128.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The printed index maps, decided over the 64 grid points: the output's block index is (0, i₀, i₁, 0), and every
    input window stays at block (0, 0). -/
theorem idx_facts : ∀ t : Fin cfg0.N,
    win0_9.index t (0 : Fin 4) = 0 ∧ win0_9.index t (1 : Fin 4) = (grid0.coords t 0).val
    ∧ win0_9.index t (2 : Fin 4) = (grid0.coords t 1).val ∧ win0_9.index t (3 : Fin 4) = 0
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every block index (0, q₀, q₁, 0) is some grid point's. -/
theorem idx_onto : ∀ (q0 q1 : Fin 8), ∃ t : Fin cfg0.N, win0_9.index t = ![0, q0.val, q1.val, 0] :=
  (by decide +kernel : ∀ (q0 q1 : Fin 8), ∃ t : Fin grid0.N, win0_9.index t = ![0, q0.val, q1.val, 0])

/-! ## The blocks the body is run on -/

/-- Each id row is staged whole: the body's block of it is the argument row. -/
theorem ids0 (c : Dev nD) (t : Fin cfg0.N) (y : S1x1024.Idx) : iblk m c 0 t y = (m ((c : Thread nD τ).loc main_arg0)) y := by
  obtain ⟨-, -, -, -, e0, e1, -⟩ := idx_facts t
  show V m c main_arg0 (((cfg0.win 0).blk t).view.emb y) = _
  rw [V_main_arg0]
  refine congrArg _ (funext fun a => Fin.ext ?_)
  match a with
  | ⟨0, _⟩ => show win0_0.index t (0 : Fin 2) * 1 + 1 * (y 0).val = (y 0).val; rw [e0]; omega
  | ⟨1, _⟩ => show win0_0.index t (1 : Fin 2) * 1024 + 1 * (y 1).val = (y 1).val; rw [e1]; omega

theorem ids1 (c : Dev nD) (t : Fin cfg0.N) (y : S1x1024.Idx) : iblk m c 1 t y = (m ((c : Thread nD τ).loc main_arg1)) y := by
  obtain ⟨-, -, -, -, -, -, e0, e1, -⟩ := idx_facts t
  show V m c main_arg1 (((cfg0.win 1).blk t).view.emb y) = _
  rw [V_main_arg1]
  refine congrArg _ (funext fun a => Fin.ext ?_)
  match a with
  | ⟨0, _⟩ => show win0_1.index t (0 : Fin 2) * 1 + 1 * (y 0).val = (y 0).val; rw [e0]; omega
  | ⟨1, _⟩ => show win0_1.index t (1 : Fin 2) * 1024 + 1 * (y 1).val = (y 1).val; rw [e1]; omega

theorem ids2 (c : Dev nD) (t : Fin cfg0.N) (y : S1x1024.Idx) : iblk m c 2 t y = (m ((c : Thread nD τ).loc main_arg2)) y := by
  obtain ⟨-, -, -, -, -, -, -, -, e0, e1, -⟩ := idx_facts t
  show V m c main_arg2 (((cfg0.win 2).blk t).view.emb y) = _
  rw [V_main_arg2]
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

theorem ids3 (c : Dev nD) (t : Fin cfg0.N) (y : S1x1024.Idx) : iblk m c 3 t y = (m ((c : Thread nD τ).loc main_arg3)) y := by
  obtain ⟨-, -, -, -, -, -, -, -, -, -, e0, e1, -⟩ := idx_facts t
  show V m c main_arg3 (((cfg0.win 3).blk t).view.emb y) = _
  rw [V_main_arg3]
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega

theorem ids4 (c : Dev nD) (t : Fin cfg0.N) (y : S1x1024.Idx) : iblk m c 4 t y = (m ((c : Thread nD τ).loc main_arg4)) y := by
  obtain ⟨-, -, -, -, -, -, -, -, -, -, -, -, e0, e1, -⟩ := idx_facts t
  show V m c main_arg4 (((cfg0.win 4).blk t).view.emb y) = _
  rw [V_main_arg4]
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

/-- Each weight block is staged whole: entry (k, z) of the body's block is the weight matrix's entry (z, o + k). -/
theorem wts5 (c : Dev nD) (t : Fin cfg0.N) (k : Fin 66) (z : Fin 128) :
    iblk m c 5 t (ix2 k z) = (m ((c : Thread nD τ).loc main_arg5)) (ix2 z (⟨k.val, by omega⟩ : Fin 139)) := by
  obtain ⟨-, -, -, -, -, -, -, -, -, -, -, -, -, -, e0, e1, -⟩ := idx_facts t
  rw [← V_v2_apply m c k z]
  show V m c main_v2 (((cfg0.win 5).blk t).view.emb (ix2 k z)) = _
  refine congrArg _ (funext fun a => Fin.ext ?_)
  match a with
  | ⟨0, _⟩ => show win0_5.index t (0 : Fin 2) * 66 + 1 * k.val = k.val; rw [e0]; omega
  | ⟨1, _⟩ => show win0_5.index t (1 : Fin 2) * 128 + 1 * z.val = z.val; rw [e1]; omega

theorem wts6 (c : Dev nD) (t : Fin cfg0.N) (k : Fin 66) (z : Fin 128) :
    iblk m c 6 t (ix2 k z) = (m ((c : Thread nD τ).loc main_arg5)) (ix2 z (⟨66 + k.val, by omega⟩ : Fin 139)) := by
  obtain ⟨-, -, -, -, -, -, -, -, -, -, -, -, -, -, -, -, e0, e1, -⟩ := idx_facts t
  rw [← V_v5_apply m c k z]
  show V m c main_v5 (((cfg0.win 6).blk t).view.emb (ix2 k z)) = _
  refine congrArg _ (funext fun a => Fin.ext ?_)
  match a with
  | ⟨0, _⟩ => show win0_6.index t (0 : Fin 2) * 66 + 1 * k.val = k.val; rw [e0]; omega
  | ⟨1, _⟩ => show win0_6.index t (1 : Fin 2) * 128 + 1 * z.val = z.val; rw [e1]; omega

theorem wts7 (c : Dev nD) (t : Fin cfg0.N) (k : Fin 1) (z : Fin 128) :
    iblk m c 7 t (ix2 k z) = (m ((c : Thread nD τ).loc main_arg5)) (ix2 z (⟨132 + k.val, by omega⟩ : Fin 139)) := by
  obtain ⟨-, -, -, -, -, -, -, -, -, -, -, -, -, -, -, -, -, -, e0, e1, -⟩ := idx_facts t
  rw [← V_v8_apply m c k z]
  show V m c main_v8 (((cfg0.win 7).blk t).view.emb (ix2 k z)) = _
  refine congrArg _ (funext fun a => Fin.ext ?_)
  match a with
  | ⟨0, _⟩ => show win0_7.index t (0 : Fin 2) * 1 + 1 * k.val = k.val; rw [e0]; omega
  | ⟨1, _⟩ => show win0_7.index t (1 : Fin 2) * 128 + 1 * z.val = z.val; rw [e1]; omega

theorem wts8 (c : Dev nD) (t : Fin cfg0.N) (k : Fin 6) (z : Fin 128) :
    iblk m c 8 t (ix2 k z) = (m ((c : Thread nD τ).loc main_arg5)) (ix2 z (⟨133 + k.val, by omega⟩ : Fin 139)) := by
  obtain ⟨-, -, -, -, -, -, -, -, -, -, -, -, -, -, -, -, -, -, -, -, e0, e1⟩ := idx_facts t
  rw [← V_v11_apply m c k z]
  show V m c main_v11 (((cfg0.win 8).blk t).view.emb (ix2 k z)) = _
  refine congrArg _ (funext fun a => Fin.ext ?_)
  match a with
  | ⟨0, _⟩ => show win0_8.index t (0 : Fin 2) * 6 + 1 * k.val = k.val; rw [e0]; omega
  | ⟨1, _⟩ => show win0_8.index t (1 : Fin 2) * 128 + 1 * z.val = z.val; rw [e1]; omega

/-! ## What a point writes back -/

/-- WHAT POINT `t` WRITES BACK is block `t` of the encoding of the arguments. -/
theorem flushed_eq (c : Dev nD) (t : Fin cfg0.N) :
    (dats m 0 c).flushed 9 t = ((cfg0.win 9).blk t).view.read (Elt Ideal) (result m c) := by
  obtain ⟨f0, f1, f2, f3, -⟩ := idx_facts t
  have h0 : (grid0.coords t 0).val < 8 := (grid0.coords t 0).isLt
  have h1 : (grid0.coords t 1).val < 8 := (grid0.coords t 1).isLt
  rw [flushed9_A, out_eq_tile]
  funext y
  revert y
  show ∀ y : S1x128x128x128.Idx, tile (grid0.coords t) (iblk m c 0 t) (iblk m c 1 t) (iblk m c 2 t) (iblk m c 3 t) (iblk m c 4 t)
      (iblk m c 5 t) (iblk m c 6 t) (iblk m c 7 t) (iblk m c 8 t) y = result m c (((cfg0.win 9).blk t).view.emb y)
  intro y
  obtain ⟨u, p, q, z, rfl⟩ : ∃ (u : Fin 1) (p q z : Fin 128), y = ix4 u p q z := ⟨y 0, y 1, y 2, y 3, eq_ix4 y⟩
  obtain rfl : u = 0 := Subsingleton.elim _ _
  have eemb : ((cfg0.win 9).blk t).view.emb (ix4 (0 : Fin 1) p q z)
      = ix4 (0 : Fin 1) (⟨128 * (grid0.coords t 0).val + p.val, by omega⟩ : Fin 1024)
          (⟨128 * (grid0.coords t 1).val + q.val, by omega⟩ : Fin 1024) z :=
    funext fun a => Fin.ext (by
      match a with
      | ⟨0, _⟩ => show win0_9.index t (0 : Fin 4) * 1 + 1 * 0 = 0; rw [f0]
      | ⟨1, _⟩ => show win0_9.index t (1 : Fin 4) * 128 + 1 * p.val = 128 * (grid0.coords t 0).val + p.val; rw [f1]; omega
      | ⟨2, _⟩ => show win0_9.index t (2 : Fin 4) * 128 + 1 * q.val = 128 * (grid0.coords t 1).val + q.val; rw [f2]; omega
      | ⟨3, _⟩ => show win0_9.index t (3 : Fin 4) * 128 + 1 * z.val = z.val; rw [f3]; omega)
  rw [eemb]
  unfold tile
  refine (Body.pay15_apply (rowIds (grid0.coords t) (iblk m c 0 t)) (colIds (grid0.coords t) (iblk m c 0 t))
    (rowIds (grid0.coords t) (iblk m c 1 t)) (colIds (grid0.coords t) (iblk m c 1 t))
    (rowIds (grid0.coords t) (iblk m c 2 t)) (colIds (grid0.coords t) (iblk m c 2 t))
    (rowIds (grid0.coords t) (iblk m c 3 t)) (colIds (grid0.coords t) (iblk m c 3 t))
    (rowIds (grid0.coords t) (iblk m c 4 t)) (colIds (grid0.coords t) (iblk m c 4 t))
    (iblk m c 5 t) (iblk m c 6 t) (iblk m c 7 t) (iblk m c 8 t) p q z).trans ?_
  rw [rowIds_apply (grid0.coords t) (iblk m c 0 t) p (⟨128 * (grid0.coords t 0).val + p.val, by omega⟩ : Fin 1024) rfl, colIds_apply (grid0.coords t) (iblk m c 0 t) q (⟨128 * (grid0.coords t 1).val + q.val, by omega⟩ : Fin 1024) rfl,
    rowIds_apply (grid0.coords t) (iblk m c 1 t) p (⟨128 * (grid0.coords t 0).val + p.val, by omega⟩ : Fin 1024) rfl, colIds_apply (grid0.coords t) (iblk m c 1 t) q (⟨128 * (grid0.coords t 1).val + q.val, by omega⟩ : Fin 1024) rfl,
    rowIds_apply (grid0.coords t) (iblk m c 2 t) p (⟨128 * (grid0.coords t 0).val + p.val, by omega⟩ : Fin 1024) rfl, colIds_apply (grid0.coords t) (iblk m c 2 t) q (⟨128 * (grid0.coords t 1).val + q.val, by omega⟩ : Fin 1024) rfl,
    rowIds_apply (grid0.coords t) (iblk m c 3 t) p (⟨128 * (grid0.coords t 0).val + p.val, by omega⟩ : Fin 1024) rfl, colIds_apply (grid0.coords t) (iblk m c 3 t) q (⟨128 * (grid0.coords t 1).val + q.val, by omega⟩ : Fin 1024) rfl,
    rowIds_apply (grid0.coords t) (iblk m c 4 t) p (⟨128 * (grid0.coords t 0).val + p.val, by omega⟩ : Fin 1024) rfl, colIds_apply (grid0.coords t) (iblk m c 4 t) q (⟨128 * (grid0.coords t 1).val + q.val, by omega⟩ : Fin 1024) rfl]
  simp only [ids0, ids1, ids2, ids3, ids4, wts5, wts6, wts7, wts8]
  rfl

/-! ## The cover -/

/-- An index of the result is in point `t`'s block iff each coordinate is in the block's range on its axis. -/
theorem mem_blk (t : Fin cfg0.N) (i : S1x1024x1024x128.Idx) :
    i ∈ ((cfg0.win 9).blk t).view.set ↔ ∀ a : Fin 4, win0_9.index t a * S1x128x128x128.size a ≤ (i a).val
      ∧ (i a).val < win0_9.index t a * S1x128x128x128.size a + S1x128x128x128.size a := by
  show i ∈ ((View.whole main_v12).slice (win0_9.rect t)).set ↔ _
  rw [View.set_slice_whole, Rect.mem_set_unit]
  exact Iff.rfl

/-- Every index of the result lies in the block of the point whose coordinates are its row and column divided by 128. -/
theorem cover (i : S1x1024x1024x128.Idx) :
    ∃ t : Fin cfg0.N, (cfg0.win 9).flush t = true ∧ i ∈ ((cfg0.win 9).blk t).view.set := by
  have hi0 : (i 0).val < 1 := (i 0).isLt
  have hi1 : (i 1).val < 1024 := (i 1).isLt
  have hi2 : (i 2).val < 1024 := (i 2).isLt
  have hi3 : (i 3).val < 128 := (i 3).isLt
  obtain ⟨t, ht⟩ := idx_onto ⟨(i 1).val / 128, by omega⟩ ⟨(i 2).val / 128, by omega⟩
  have q0 : win0_9.index t (0 : Fin 4) = 0 := congrFun ht 0
  have q1 : win0_9.index t (1 : Fin 4) = (i 1).val / 128 := congrFun ht 1
  have q2 : win0_9.index t (2 : Fin 4) = (i 2).val / 128 := congrFun ht 2
  have q3 : win0_9.index t (3 : Fin 4) = 0 := congrFun ht 3
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 128 ≤ (i 1).val ∧ (i 1).val < win0_9.index t (1 : Fin 4) * 128 + 128; omega
  | ⟨2, _⟩ => show win0_9.index t (2 : Fin 4) * 128 ≤ (i 2).val ∧ (i 2).val < win0_9.index t (2 : Fin 4) * 128 + 128; omega
  | ⟨3, _⟩ => show win0_9.index t (3 : Fin 4) * 128 ≤ (i 3).val ∧ (i 3).val < win0_9.index t (3 : Fin 4) * 128 + 128; omega

/-- THE ARRAY after the run is the encoding of the arguments. -/
theorem final (c : Dev nD) : (dats m 0 c).arrAt 9 cfg0.N = result m c :=
  (dats m 0 c).arrAt_eq_of_cover 9 (result m c) (fun t _ => flushed_eq m c t) cover

/-- The kernel's run, read: the result array at the encoding of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.Ref.lean ====
/-
  The reference computes the same function.

  The reference builds, for every pair of tokens (r, c), the three bins and the entity flag by the same integer
  operations, turns each bin into its row of indicators, joins the four rows into one row of 139 features, and contracts
  that row with row z of the weight matrix.  A sum over the 139 joined columns is the sum of the sums over the four
  groups, and in each group the joined row is the group's own row.
-/
import proofs.«114988_j86371792322629_1_alg».proof.Proof.Gen.ReferenceIdeal.Read
import proofs.«114988_j86371792322629_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.RelPos

/-! ## Where the pairwise stages read their id rows: at the pair's row token, or at its column token -/

theorem row_0 (r c : Fin 1024) : idx_main_v0 (idx_main_v2 (ix3 (0 : Fin 1) r c)) = ix2 (0 : Fin 1) r :=
  funext fun a => by match a with | ⟨0, _⟩ => rfl | ⟨1, _⟩ => rfl
theorem col_1 (r c : Fin 1024) : idx_main_v1 (idx_main_v3 (ix3 (0 : Fin 1) r c)) = ix2 (0 : Fin 1) c :=
  funext fun a => by match a with | ⟨0, _⟩ => rfl | ⟨1, _⟩ => rfl
theorem row_5 (r c : Fin 1024) : idx_main_v5 (idx_main_v7 (ix3 (0 : Fin 1) r c)) = ix2 (0 : Fin 1) r :=
  funext fun a => by match a with | ⟨0, _⟩ => rfl | ⟨1, _⟩ => rfl
theorem col_6 (r c : Fin 1024) : idx_main_v6 (idx_main_v8 (ix3 (0 : Fin 1) r c)) = ix2 (0 : Fin 1) c :=
  funext fun a => by match a with | ⟨0, _⟩ => rfl | ⟨1, _⟩ => rfl
theorem row_10 (r c : Fin 1024) : idx_main_v10 (idx_main_v12 (ix3 (0 : Fin 1) r c)) = ix2 (0 : Fin 1) r :=
  funext fun a => by match a with | ⟨0, _⟩ => rfl | ⟨1, _⟩ => rfl
theorem col_11 (r c : Fin 1024) : idx_main_v11 (idx_main_v13 (ix3 (0 : Fin 1) r c)) = ix2 (0 : Fin 1) c :=
  funext fun a => by match a with | ⟨0, _⟩ => rfl | ⟨1, _⟩ => rfl
theorem row_15 (r c : Fin 1024) : idx_main_v15 (idx_main_v17 (ix3 (0 : Fin 1) r c)) = ix2 (0 : Fin 1) r :=
  funext fun a => by match a with | ⟨0, _⟩ => rfl | ⟨1, _⟩ => rfl
theorem col_16 (r c : Fin 1024) : idx_main_v16 (idx_main_v18 (ix3 (0 : Fin 1) r c)) = ix2 (0 : Fin 1) c :=
  funext fun a => by match a with | ⟨0, _⟩ => rfl | ⟨1, _⟩ => rfl
theorem row_25 (r c : Fin 1024) : idx_main_v25 (idx_main_v27 (ix3 (0 : Fin 1) r c)) = ix2 (0 : Fin 1) r :=
  funext fun a => by match a with | ⟨0, _⟩ => rfl | ⟨1, _⟩ => rfl
theorem col_26 (r c : Fin 1024) : idx_main_v26 (idx_main_v28 (ix3 (0 : Fin 1) r c)) = ix2 (0 : Fin 1) c :=
  funext fun a => by match a with | ⟨0, _⟩ => rfl | ⟨1, _⟩ => rfl
theorem row_36 (r c : Fin 1024) : idx_main_v36 (idx_main_v38 (ix3 (0 : Fin 1) r c)) = ix2 (0 : Fin 1) r :=
  funext fun a => by match a with | ⟨0, _⟩ => rfl | ⟨1, _⟩ => rfl
theorem col_37 (r c : Fin 1024) : idx_main_v37 (idx_main_v39 (ix3 (0 : Fin 1) r c)) = ix2 (0 : Fin 1) c :=
  funext fun a => by match a with | ⟨0, _⟩ => rfl | ⟨1, _⟩ => rfl

variable (x0 x1 x2 x3 x4 : (⟨S1x1024, .i32⟩ : BufTy).Contents (Elt Ideal)) (x5 : (⟨S128x139, .f32⟩ : BufTy).Contents (Elt Ideal))

/-! ## The pairwise stages at a pair (r, c) -/

/-- The same-chain mask. -/
theorem v4_at (r c : Fin 1024) :
    val_main_v4 (F := Ideal) x0 (ix3 (0 : Fin 1) r c) = IntOp.cmpi .eq (x0 (ix2 (0 : Fin 1) r)) (x0 (ix2 (0 : Fin 1) c)) := by
  rw [val_main_v4_apply, val_main_v2_apply, val_main_v0_apply, val_main_v3_apply, val_main_v1_apply, row_0, col_1]

/-- The same-residue mask. -/
theorem v9_at (r c : Fin 1024) :
    val_main_v9 (F := Ideal) x1 (ix3 (0 : Fin 1) r c) = IntOp.cmpi .eq (x1 (ix2 (0 : Fin 1) r)) (x1 (ix2 (0 : Fin 1) c)) := by
  rw [val_main_v9_apply, val_main_v7_apply, val_main_v5_apply, val_main_v8_apply, val_main_v6_apply, row_5, col_6]

/-- The same-entity mask. -/
theorem v14_at (r c : Fin 1024) :
    val_main_v14 (F := Ideal) x2 (ix3 (0 : Fin 1) r c) = IntOp.cmpi .eq (x2 (ix2 (0 : Fin 1) r)) (x2 (ix2 (0 : Fin 1) c)) := by
  rw [val_main_v14_apply, val_main_v12_apply, val_main_v10_apply, val_main_v13_apply, val_main_v11_apply, row_10, col_11]

/-- The residue-offset bin. -/
theorem v23_at (r c : Fin 1024) :
    val_main_v23 (F := Ideal) x0 x1 (ix3 (0 : Fin 1) r c)
      = bin 32#32 64#32 65#32 (IntOp.cmpi .eq (x0 (ix2 (0 : Fin 1) r)) (x0 (ix2 (0 : Fin 1) c))) (x1 (ix2 (0 : Fin 1) r)) (x1 (ix2 (0 : Fin 1) c)) := by
  rw [val_main_v23_apply, v4_at]
  simp only [val_main_v22_apply, val_main_call0_v4_apply, val_main_call0_v3_apply, val_main_c_1_apply, val_main_call0_v2_apply,
    val_main_call0_v1_apply, val_main_call0_v0_apply, val_main_c_0_apply, val_main_v21_apply, val_main_v19_apply, val_main_v17_apply,
    val_main_v15_apply, val_main_v18_apply, val_main_v16_apply, val_main_v20_apply, val_main_c_apply, val_main_call1_v1_apply,
    val_main_call1_v0_apply, val_main_c_2_apply, row_15, col_16]
  rfl

/-- The token-offset bin. -/
theorem v34_at (r c : Fin 1024) :
    val_main_v34 (F := Ideal) x0 x1 x3 (ix3 (0 : Fin 1) r c)
      = bin 32#32 64#32 65#32 (IntOp.andi (IntOp.cmpi .eq (x0 (ix2 (0 : Fin 1) r)) (x0 (ix2 (0 : Fin 1) c)))
          (IntOp.cmpi .eq (x1 (ix2 (0 : Fin 1) r)) (x1 (ix2 (0 : Fin 1) c)))) (x3 (ix2 (0 : Fin 1) r)) (x3 (ix2 (0 : Fin 1) c)) := by
  rw [val_main_v34_apply, val_main_v33_apply, v4_at, v9_at]
  simp only [val_main_v32_apply, val_main_call3_v4_apply, val_main_call3_v3_apply, val_main_c_5_apply, val_main_call3_v2_apply,
    val_main_call3_v1_apply, val_main_call3_v0_apply, val_main_c_4_apply, val_main_v31_apply, val_main_v29_apply, val_main_v27_apply,
    val_main_v25_apply, val_main_v28_apply, val_main_v26_apply, val_main_v30_apply, val_main_c_3_apply, val_main_call4_v1_apply,
    val_main_call4_v0_apply, val_main_c_6_apply, row_25, col_26]
  rfl

/-- The chain-offset bin. -/
theorem v44_at (r c : Fin 1024) :
    val_main_v44 (F := Ideal) x2 x4 (ix3 (0 : Fin 1) r c)
      = bin 2#32 4#32 5#32 (IntOp.cmpi .eq (x2 (ix2 (0 : Fin 1) r)) (x2 (ix2 (0 : Fin 1) c))) (x4 (ix2 (0 : Fin 1) r)) (x4 (ix2 (0 : Fin 1) c)) := by
  rw [val_main_v44_apply, v14_at]
  simp only [val_main_v43_apply, val_main_call6_v4_apply, val_main_call6_v3_apply, val_main_c_9_apply, val_main_call6_v2_apply,
    val_main_call6_v1_apply, val_main_call6_v0_apply, val_main_c_8_apply, val_main_v42_apply, val_main_v40_apply, val_main_v38_apply,
    val_main_v36_apply, val_main_v39_apply, val_main_v37_apply, val_main_v41_apply, val_main_c_7_apply, val_main_call7_v1_apply,
    val_main_call7_v0_apply, val_main_c_10_apply, row_36, col_37]
  rfl

/-! ## The indicator rows at (r, c, k) -/

/-- The residue bin's indicators. -/
theorem v24_at (u : Fin 1) (r c : Fin 1024) (k : Fin 66) :
    val_main_v24 (F := Ideal) x0 x1 (ix4 u r c k) = hot (val_main_v23 (F := Ideal) x0 x1 (ix3 (0 : Fin 1) r c)) k.val := by
  have e : idx_main_call2_v0 (idx_main_call2_v2 (ix4 u r c k)) = ix3 (0 : Fin 1) r c :=
    funext fun a => by match a with | ⟨0, _⟩ => rfl | ⟨1, _⟩ => rfl | ⟨2, _⟩ => rfl
  rw [val_main_v24_apply, val_main_call2_v4_apply, val_main_call2_v2_apply, val_main_call2_v0_apply, val_main_call2_v3_apply,
    val_main_call2_v1_apply, e]
  rfl

/-- The token bin's indicators. -/
theorem v35_at (u : Fin 1) (r c : Fin 1024) (k : Fin 66) :
    val_main_v35 (F := Ideal) x0 x1 x3 (ix4 u r c k) = hot (val_main_v34 (F := Ideal) x0 x1 x3 (ix3 (0 : Fin 1) r c)) k.val := by
  have e : idx_main_call5_v0 (idx_main_call5_v2 (ix4 u r c k)) = ix3 (0 : Fin 1) r c :=
    funext fun a => by match a with | ⟨0, _⟩ => rfl | ⟨1, _⟩ => rfl | ⟨2, _⟩ => rfl
  rw [val_main_v35_apply, val_main_call5_v4_apply, val_main_call5_v2_apply, val_main_call5_v0_apply, val_main_call5_v3_apply,
    val_main_call5_v1_apply, e]
  rfl

/-- The chain bin's indicators. -/
theorem v45_at (u : Fin 1) (r c : Fin 1024) (k : Fin 6) :
    val_main_v45 (F := Ideal) x2 x4 (ix4 u r c k) = hot (val_main_v44 (F := Ideal) x2 x4 (ix3 (0 : Fin 1) r c)) k.val := by
  have e : idx_main_call8_v0 (idx_main_call8_v2 (ix4 u r c k)) = ix3 (0 : Fin 1) r c :=
    funext fun a => by match a with | ⟨0, _⟩ => rfl | ⟨1, _⟩ => rfl | ⟨2, _⟩ => rfl
  rw [val_main_v45_apply, val_main_call8_v4_apply, val_main_call8_v2_apply, val_main_call8_v0_apply, val_main_call8_v3_apply,
    val_main_call8_v1_apply, e]
  rfl

/-- The same-entity flag as a one-column row. -/
theorem v47_at (u : Fin 1) (r c : Fin 1024) (k : Fin 1) :
    val_main_v47 (F := Ideal) x2 (ix4 u r c k) = flag (val_main_v14 (F := Ideal) x2 (ix3 (0 : Fin 1) r c)) := by
  have e : idx_main_v46 (ix4 u r c k) = ix3 (0 : Fin 1) r c :=
    funext fun a => by match a with | ⟨0, _⟩ => rfl | ⟨1, _⟩ => rfl | ⟨2, _⟩ => rfl
  rw [val_main_v47_apply, val_main_v46_apply, e]
  rfl

/-! ## The joined row of 139 features, group by group -/

/-- Columns 0–65 of the joined row are the residue indicators. -/
theorem v48_res (u : Fin 1) (r c : Fin 1024) (k : Fin 66) :
    val_main_v48 (F := Ideal) x0 x1 x2 x3 x4 (ix4 u r c (⟨k.val, by omega⟩ : Fin 139)) = val_main_v24 (F := Ideal) x0 x1 (ix4 u r c k) := by
  unfold val_main_v48
  generalize val_main_v24 (F := Ideal) x0 x1 = y0
  generalize val_main_v35 (F := Ideal) x0 x1 x3 = y1
  generalize val_main_v47 (F := Ideal) x2 = y2
  generalize val_main_v45 (F := Ideal) x2 x4 = y3
  exact concatenate_apply_piece (t := S1x1024x1024x139) (3 : Fin 4)
    [⟨S1x1024x1024x66, y0⟩, ⟨S1x1024x1024x66, y1⟩, ⟨S1x1024x1024x1, y2⟩, ⟨S1x1024x1024x6, y3⟩] _ _
    0 (by show 0 < 4; omega) S1x1024x1024x66 _ rfl rfl 0 rfl (ix4 u r c k)
    (fun b => by match b with | ⟨0, _⟩ => exact fun _ => rfl | ⟨1, _⟩ => exact fun _ => rfl | ⟨2, _⟩ => exact fun _ => rfl | ⟨3, _⟩ => exact fun h => absurd rfl h)
    (by show 0 + k.val = k.val; omega)

/-- Columns 66–131 are the token indicators. -/
theorem v48_tok (u : Fin 1) (r c : Fin 1024) (k : Fin 66) :
    val_main_v48 (F := Ideal) x0 x1 x2 x3 x4 (ix4 u r c (⟨66 + k.val, by omega⟩ : Fin 139)) = val_main_v35 (F := Ideal) x0 x1 x3 (ix4 u r c k) := by
  unfold val_main_v48
  generalize val_main_v24 (F := Ideal) x0 x1 = y0
  generalize val_main_v35 (F := Ideal) x0 x1 x3 = y1
  generalize val_main_v47 (F := Ideal) x2 = y2
  generalize val_main_v45 (F := Ideal) x2 x4 = y3
  exact concatenate_apply_piece (t := S1x1024x1024x139) (3 : Fin 4)
    [⟨S1x1024x1024x66, y0⟩, ⟨S1x1024x1024x66, y1⟩, ⟨S1x1024x1024x1, y2⟩, ⟨S1x1024x1024x6, y3⟩] _ _
    1 (by show 1 < 4; omega) S1x1024x1024x66 _ rfl rfl 66 rfl (ix4 u r c k)
    (fun b => by match b with | ⟨0, _⟩ => exact fun _ => rfl | ⟨1, _⟩ => exact fun _ => rfl | ⟨2, _⟩ => exact fun _ => rfl | ⟨3, _⟩ => exact fun h => absurd rfl h)
    rfl

/-- Column 132 is the same-entity flag. -/
theorem v48_ent (u : Fin 1) (r c : Fin 1024) (k : Fin 1) :
    val_main_v48 (F := Ideal) x0 x1 x2 x3 x4 (ix4 u r c (⟨132 + k.val, by omega⟩ : Fin 139)) = val_main_v47 (F := Ideal) x2 (ix4 u r c k) := by
  unfold val_main_v48
  generalize val_main_v24 (F := Ideal) x0 x1 = y0
  generalize val_main_v35 (F := Ideal) x0 x1 x3 = y1
  generalize val_main_v47 (F := Ideal) x2 = y2
  generalize val_main_v45 (F := Ideal) x2 x4 = y3
  exact concatenate_apply_piece (t := S1x1024x1024x139) (3 : Fin 4)
    [⟨S1x1024x1024x66, y0⟩, ⟨S1x1024x1024x66, y1⟩, ⟨S1x1024x1024x1, y2⟩, ⟨S1x1024x1024x6, y3⟩] _ _
    2 (by show 2 < 4; omega) S1x1024x1024x1 _ rfl rfl 132 rfl (ix4 u r c k)
    (fun b => by match b with | ⟨0, _⟩ => exact fun _ => rfl | ⟨1, _⟩ => exact fun _ => rfl | ⟨2, _⟩ => exact fun _ => rfl | ⟨3, _⟩ => exact fun h => absurd rfl h)
    rfl

/-- Columns 133–138 are the chain indicators. -/
theorem v48_chain (u : Fin 1) (r c : Fin 1024) (k : Fin 6) :
    val_main_v48 (F := Ideal) x0 x1 x2 x3 x4 (ix4 u r c (⟨133 + k.val, by omega⟩ : Fin 139)) = val_main_v45 (F := Ideal) x2 x4 (ix4 u r c k) := by
  unfold val_main_v48
  generalize val_main_v24 (F := Ideal) x0 x1 = y0
  generalize val_main_v35 (F := Ideal) x0 x1 x3 = y1
  generalize val_main_v47 (F := Ideal) x2 = y2
  generalize val_main_v45 (F := Ideal) x2 x4 = y3
  exact concatenate_apply_piece (t := S1x1024x1024x139) (3 : Fin 4)
    [⟨S1x1024x1024x66, y0⟩, ⟨S1x1024x1024x66, y1⟩, ⟨S1x1024x1024x1, y2⟩, ⟨S1x1024x1024x6, y3⟩] _ _
    3 (by show 3 < 4; omega) S1x1024x1024x6 _ rfl rfl 133 rfl (ix4 u r c k)
    (fun b => by match b with | ⟨0, _⟩ => exact fun _ => rfl | ⟨1, _⟩ => exact fun _ => rfl | ⟨2, _⟩ => exact fun _ => rfl | ⟨3, _⟩ => exact fun h => absurd rfl h)
    rfl

/-! ## The contraction -/

/-- Entry (r, c, z) of the reference's result is the encoding's entry. -/
theorem v49_at (u : Fin 1) (r c : Fin 1024) (z : Fin 128) :
    val_main_v49 (F := Ideal) x0 x1 x2 x3 x4 x5 (ix4 u r c z) = entry x0 x1 x2 x3 x4 x5 r c z := by
  have el : ∀ k : Fin 139, lidx_main_v49 (ix4 u r c z) k = ix4 u r c k := fun k =>
    funext fun a => by match a with | ⟨0, _⟩ => rfl | ⟨1, _⟩ => rfl | ⟨2, _⟩ => rfl | ⟨3, _⟩ => rfl
  have er : ∀ k : Fin 139, ridx_main_v49 (ix4 u r c z) k = ix2 z k := fun k =>
    funext fun a => by match a with | ⟨0, _⟩ => rfl | ⟨1, _⟩ => rfl
  rw [val_main_v49_apply]
  simp only [el, er]
  rw [sum_columns (fun b : Fin 139 => val_main_v48 (F := Ideal) x0 x1 x2 x3 x4 (ix4 u r c b) * x5 (ix2 z b))]
  dsimp only
  simp only [v48_res, v48_tok, v48_ent, v48_chain, v24_at, v35_at, v45_at, v47_at, v23_at, v34_at, v44_at, v14_at]
  rfl

/-- The reference's result array is the encoding of its six arguments. -/
theorem result_eq : val_main_v49 (F := Ideal) x0 x1 x2 x3 x4 x5 = G x0 x1 x2 x3 x4 x5 := by
  funext i
  obtain ⟨u, r, c, z, rfl⟩ : ∃ (u : Fin 1) (r c : Fin 1024) (z : Fin 128), i = ix4 u r c z := ⟨i 0, i 1, i 2, i 3, eq_ix4 i⟩
  exact v49_at x0 x1 x2 x3 x4 x5 u r c z

end Cert.ReferenceIdeal.RefValue

end
-- ==== Proof.lean ====
/-
  The relative-position encoding kernel against its reference.

  Both programs compute, for every pair of tokens (r, c) and every output channel z, the same number: the sum over 139
  feature columns of an indicator (of the pair's residue-offset bin, token-offset bin, same-entity flag and chain-offset
  bin) times W (z, column).  The kernel computes it tile by tile, as four matrix products of one-hot groups with the
  four column groups of W; the reference as one contraction of the joined feature row with W.  Over the extended reals
  these agree because a sum over the joined columns is the sum of the four groups' sums; no finiteness of W is used.
  The three frames are the generated ones (the reference's is its generated run with the result dropped), and the
  idealization rewrote nothing.
-/
import proofs.«114988_j86371792322629_1_alg».proof.Defs
import proofs.«114988_j86371792322629_1_alg».proof.Proof.Gen.Kernel
import proofs.«114988_j86371792322629_1_alg».proof.Proof.Gen.Kernel.Frame
import proofs.«114988_j86371792322629_1_alg».proof.Proof.Gen.KernelIdeal
import proofs.«114988_j86371792322629_1_alg».proof.Proof.Gen.KernelIdeal.Frame
import proofs.«114988_j86371792322629_1_alg».proof.Proof.Gen.KernelIdeal.Value
import proofs.«114988_j86371792322629_1_alg».proof.Proof.Gen.ReferenceIdeal
import proofs.«114988_j86371792322629_1_alg».proof.Proof.Gen.ReferenceIdeal.Run
import proofs.«114988_j86371792322629_1_alg».proof.Proof.Gen.ReferenceIdeal.Read
import proofs.«114988_j86371792322629_1_alg».proof.Proof.Gen.Pre_finite_inputs
import proofs.«114988_j86371792322629_1_alg».proof.Proof.Blocks
import proofs.«114988_j86371792322629_1_alg».proof.Proof.Ref
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the encoding of its arguments (tile by tile), the reference's at the encoding of
    its own arguments (the contraction split into the four groups); the arguments agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
